-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8193 : Shape := ⟨2, ![512, 8193]⟩
abbrev S8193x2049 : Shape := ⟨2, ![8193, 2049]⟩
abbrev S_ : Shape := ⟨0, ![]⟩

class Facts : Prop where
  bcast_S_S512x8193 : S_.BroadcastsInDim S512x8193 (![] : Fin 0 → Fin S512x8193.rank)
  reducesTo_S512x8193_S_d0_1 : S512x8193.ReducesTo [0, 1] S_
  h_S_ : 0 < S_.numel
  bcast_S_S8193x2049 : S_.BroadcastsInDim S8193x2049 (![] : Fin 0 → Fin S8193x2049.rank)
  reducesTo_S8193x2049_S_d0_1 : S8193x2049.ReducesTo [0, 1] S_

variable [Facts]

def fn {F : FTy → Type} [FloatOps F] (main_arg0 : FVec F S512x8193 .f32) (main_arg1 : FVec F S8193x2049 .f32) : IVec S_ 1 :=
  let main_v0 : FVec F S512x8193 .f32 := Host.absf main_arg0
  let main_cst : FVec F S_ .f32 := constant S_ .f32 0x7F800000#32
  let main_v1 : FVec F S512x8193 .f32 := broadcastInDim S512x8193 ![] bcast_S_S512x8193 main_cst
  let main_v2 : IVec S512x8193 1 := cmpf .olt main_v0 main_v1
  let main_c : IVec S_ 1 := constantI S_ 1 1#1
  let main_v3 : IVec S_ 1 := (fun x v => Host.reduce IntOp.andi x v reducesTo_S512x8193_S_d0_1 h_S_) main_v2 main_c
  let main_v4 : FVec F S8193x2049 .f32 := Host.absf main_arg1
  let main_cst_0 : FVec F S_ .f32 := constant S_ .f32 0x7F800000#32
  let main_v5 : FVec F S8193x2049 .f32 := broadcastInDim S8193x2049 ![] bcast_S_S8193x2049 main_cst_0
  let main_v6 : IVec S8193x2049 1 := cmpf .olt main_v4 main_v5
  let main_c_1 : IVec S_ 1 := constantI S_ 1 1#1
  let main_v7 : IVec S_ 1 := (fun x v => Host.reduce IntOp.andi x v reducesTo_S8193x2049_S_d0_1 h_S_) main_v6 main_c_1
  let main_v8 : IVec S_ 1 := andi main_v3 main_v7
  main_v8
-- ==== Kernel.lean ====
abbrev S512x8193 : Shape := ⟨2, ![512, 8193]⟩
abbrev S8193x2049 : Shape := ⟨2, ![8193, 2049]⟩
abbrev S8193x512 : Shape := ⟨2, ![8193, 512]⟩
abbrev S2049x8193 : Shape := ⟨2, ![2049, 8193]⟩
abbrev S2049x512 : Shape := ⟨2, ![2049, 512]⟩
abbrev S344x8193 : Shape := ⟨2, ![344, 8193]⟩
abbrev S344x512 : Shape := ⟨2, ![344, 512]⟩
abbrev S8192x512 : Shape := ⟨2, ![8192, 512]⟩
abbrev S344x1 : Shape := ⟨2, ![344, 1]⟩
abbrev S1x512 : Shape := ⟨2, ![1, 512]⟩
abbrev S344x2048 : Shape := ⟨2, ![344, 2048]⟩
abbrev S2048x512 : Shape := ⟨2, ![2048, 512]⟩
abbrev S512x2049 : Shape := ⟨2, ![512, 2049]⟩

abbrev nBuf : Space → Nat
  | .hbm => 6
  | .vmem => 6
  | .smem => 0
  | _ => 0

abbrev bufTy : (tb : Table) → Fin (tcTables nBuf tb) → BufTy
  | .hbm, ⟨0, _⟩ => ⟨S512x8193, .f32⟩
  | .hbm, ⟨1, _⟩ => ⟨S8193x2049, .f32⟩
  | .hbm, ⟨2, _⟩ => ⟨S8193x512, .f32⟩
  | .hbm, ⟨3, _⟩ => ⟨S2049x8193, .f32⟩
  | .hbm, ⟨4, _⟩ => ⟨S2049x512, .f32⟩
  | .hbm, ⟨5, _⟩ => ⟨S512x2049, .f32⟩
  | .local _ .vmem, ⟨0, _⟩ => ⟨S344x8193, .f32⟩
  | .local _ .vmem, ⟨1, _⟩ => ⟨S344x8193, .f32⟩
  | .local _ .vmem, ⟨2, _⟩ => ⟨S8193x512, .f32⟩
  | .local _ .vmem, ⟨3, _⟩ => ⟨S344x512, .f32⟩
  | .local _ .vmem, ⟨4, _⟩ => ⟨S344x512, .f32⟩
  | .local _ .vmem, ⟨5, _⟩ => ⟨S8192x512, .bf16⟩
  | _, _ => ⟨S512x8193, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S344x8193 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8193x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S344x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S512x8193_S8193x512_1_0 : S512x8193.Transposes [1, 0] S8193x512
  transposes_S8193x2049_S2049x8193_1_0 : S8193x2049.Transposes [1, 0] S2049x8193
  inb_S8193x512_S8192x512_0_0 : ∀ a, (![0, 0] : Fin 2 → Nat) a + S8192x512.size a ≤ S8193x512.size a
  h_S8192x512 : 0 < S8192x512.numel
  shapeCasts_S8192x512_S8192x512 : S8192x512.ShapeCasts S8192x512
  bitsLt_bf16_f32 : FTy.bits .bf16 < FTy.bits .f32
  inb_S8192x512_S8192x512_0_0 : ∀ a, (![0, 0] : Fin 2 → Nat) a + S8192x512.size a ≤ S8192x512.size a
  packedbf16_S8192x512_S8192x512_0_0 : (Rect.unit (s := S8192x512) ![0, 0] S8192x512.size inb_S8192x512_S8192x512_0_0).PackedRows (EltTy.packing .bf16)
  inb_S344x8193_S344x1_0_8192 : ∀ a, (![0, 8192] : Fin 2 → Nat) a + S344x1.size a ≤ S344x8193.size a
  h_S344x1 : 0 < S344x1.numel
  shapeCasts_S344x1_S344x1 : S344x1.ShapeCasts S344x1
  inb_S8193x512_S1x512_8192_0 : ∀ a, (![8192, 0] : Fin 2 → Nat) a + S1x512.size a ≤ S8193x512.size a
  h_S1x512 : 0 < S1x512.numel
  shapeCasts_S1x512_S1x512 : S1x512.ShapeCasts S1x512
  broadcasts_S344x1_S344x512 : S344x1.Broadcasts S344x512
  broadcasts_S1x512_S344x512 : S1x512.Broadcasts S344x512
  inb_S344x8193_S344x2048_0_0 : ∀ a, (![0, 0] : Fin 2 → Nat) a + S344x2048.size a ≤ S344x8193.size a
  h_S344x2048 : 0 < S344x2048.numel
  shapeCasts_S344x2048_S344x2048 : S344x2048.ShapeCasts S344x2048
  inb_S8192x512_S2048x512_0_0 : ∀ a, (![0, 0] : Fin 2 → Nat) a + S2048x512.size a ≤ S8192x512.size a
  h_S2048x512 : 0 < S2048x512.numel
  inb_S344x8193_S344x2048_0_2048 : ∀ a, (![0, 2048] : Fin 2 → Nat) a + S344x2048.size a ≤ S344x8193.size a
  inb_S8192x512_S2048x512_2048_0 : ∀ a, (![2048, 0] : Fin 2 → Nat) a + S2048x512.size a ≤ S8192x512.size a
  inb_S344x8193_S344x2048_0_4096 : ∀ a, (![0, 4096] : Fin 2 → Nat) a + S344x2048.size a ≤ S344x8193.size a
  inb_S8192x512_S2048x512_4096_0 : ∀ a, (![4096, 0] : Fin 2 → Nat) a + S2048x512.size a ≤ S8192x512.size a
  inb_S344x8193_S344x2048_0_6144 : ∀ a, (![0, 6144] : Fin 2 → Nat) a + S344x2048.size a ≤ S344x8193.size a
  inb_S8192x512_S2048x512_6144_0 : ∀ a, (![6144, 0] : Fin 2 → Nat) a + S2048x512.size a ≤ S8192x512.size a
  inb_S344x512_S344x512_0_0 : ∀ a, (![0, 0] : Fin 2 → Nat) a + S344x512.size a ≤ S344x512.size a
  h_S344x512 : 0 < S344x512.numel
  transposes_S2049x512_S512x2049_1_0 : S2049x512.Transposes [1, 0] S512x2049
  dot_S344x2048_S2048x512_S344x512_1_0_0_1_n_n_wf : DotDims.WF S344x2048 S2048x512 S344x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S344x8193.size a < S2049x8193.size a
  hwx0_0 : ∀ i : grid0.Coords, EltTy.bits .f32 = 32 ∨ (Rect.unit (s := S2049x8193) (fun a => cc0_transform_0 i a * S344x8193.size a) (fun a => (Pipeline.Clip.of (cc0_transform_0 i a) (S344x8193.size a) (S2049x8193.size a)).extent (S344x8193.size a)) fun a => Pipeline.Clip.inb (Pipeline.Clip.ok_of (hstart0_0 i a))).WholeWords (EltTy.packing .f32)
  hwxs0_0 : ∀ i : grid0.Coords, EltTy.bits .f32 = 32 ∨ (Rect.unit (s := S344x8193) (fun _ => 0) (fun a => (Pipeline.Clip.of (cc0_transform_0 i a) (S344x8193.size a) (S2049x8193.size a)).extent (S344x8193.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8193x512.size a ≤ S8193x512.size a
  hwx0_1 : ∀ i : grid0.Coords, EltTy.bits .f32 = 32 ∨ (Rect.block (s := S8193x512) S8193x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S344x512.size a < S2049x512.size a
  hwx0_2 : ∀ i : grid0.Coords, EltTy.bits .f32 = 32 ∨ (Rect.unit (s := S2049x512) (fun a => cc0_transform_2 i a * S344x512.size a) (fun a => (Pipeline.Clip.of (cc0_transform_2 i a) (S344x512.size a) (S2049x512.size a)).extent (S344x512.size a)) fun a => Pipeline.Clip.inb (Pipeline.Clip.ok_of (hstart0_2 i a))).WholeWords (EltTy.packing .f32)
  hwxs0_2 : ∀ i : grid0.Coords, EltTy.bits .f32 = 32 ∨ (Rect.unit (s := S344x512) (fun _ => 0) (fun a => (Pipeline.Clip.of (cc0_transform_2 i a) (S344x512.size a) (S2049x512.size a)).extent (S344x512.size a)) fun a => (Nat.zero_add _).trans_le (Pipeline.Clip.extent_le (Pipeline.Clip.ok_of (hstart0_2 i a)))).WholeWords (EltTy.packing .f32)

variable [Facts₀]

def dot_S344x2048_S2048x512_S344x512_1_0_0_1_n_n : DotDims S344x2048 S2048x512 S344x512 where
  lhsContracting := [1]
  rhsContracting := [0]
  lhsNonContracting := [0]
  rhsNonContracting := [1]
  lhsBatch := []
  rhsBatch := []
  wf := dot_S344x2048_S2048x512_S344x512_1_0_0_1_n_n_wf

abbrev win0_0 : Pipeline.Window sig grid0 :=
  Pipeline.Window.ofSpecClip (Memref.whole main_v1) S344x8193.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S8193x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v2) S344x512.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x8193 : Shape := ⟨2, ![512, 8193]⟩
abbrev S8193x2049 : Shape := ⟨2, ![8193, 2049]⟩
abbrev S512x2049 : Shape := ⟨2, ![512, 2049]⟩

abbrev nBuf : Space → Nat
  | .hbm => 3
  | .vmem => 0
  | .smem => 0
  | _ => 0

abbrev bufTy : (tb : Table) → Fin (tcTables nBuf tb) → BufTy
  | .hbm, ⟨0, _⟩ => ⟨S512x8193, .f32⟩
  | .hbm, ⟨1, _⟩ => ⟨S8193x2049, .f32⟩
  | .hbm, ⟨2, _⟩ => ⟨S512x2049, .f32⟩
  | _, _ => ⟨S512x8193, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S512x8193_S8193x2049_S512x2049_1_0_0_1_n_n_wf : DotDims.WF S512x8193 S8193x2049 S512x2049 [1] [0] [0] [1] [] []

variable [Facts₀]

def dot_S512x8193_S8193x2049_S512x2049_1_0_0_1_n_n : DotDims S512x8193 S8193x2049 S512x2049 where
  lhsContracting := [1]
  rhsContracting := [0]
  lhsNonContracting := [0]
  rhsNonContracting := [1]
  lhsBatch := []
  rhsBatch := []
  wf := dot_S512x8193_S8193x2049_S512x2049_1_0_0_1_n_n_wf

class Facts : Prop extends Facts₀ where

variable [Facts]
-- ==== Proof.BodyRunBits.lean ====
/-
  The kernel body of `Kernel` on any four whole buffers, at either kind of grid point.
  The body reads a block of rows of Wᵀ (344 × 8193), the whole of xᵀ (8193 × 512) and a scratch of 8192 × 512;
  at the first grid point it first stores the first 8192 rows of xᵀ, narrowed, into the scratch; at every point it
  then stores into the result block (344 × 512) the outer product of Wᵀ's last column with xᵀ's last row plus four
  products of a 344 × 2048 column band of Wᵀ with the matching 2048 × 512 row band of the scratch.
  Stated here, for any float instance: the body runs without fault, leaves the two inputs as found, and leaves the
  result block (and at the first point the scratch) holding the listed stores.
-/
import proofs.«105214_g76794015252828_cont_sun_c4_578_17_alg».proof.Proof.Gen.Kernel.Launch
import proofs.«105214_g76794015252828_cont_sun_c4_578_17_alg».proof.Proof.Gen.Kernel.Skeleton
import proofs.«105214_g76794015252828_cont_sun_c4_578_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, from the grid coordinate: "this is grid point 0". -/
abbrev isFirst (i : grid0.Coords) : Prop :=
  (Scalar.cmpi .ne (Scalar.extui (Scalar.cmpi .eq (BitVec.ofNat 32 (i 0).val) 0#32)) 0#32) = 1#1

/-- Over the six grid points it holds exactly at point 0. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- At the first grid point: from the Wᵀ block at `x0`, xᵀ at `x1`, the result block and the scratch at anything,
    the body ends with the inputs as found and the result block and the scratch each holding its stores. -/
noncomputable def runFirst (c : Dev nD) (i : grid0.Coords) (arg1 : Memref sig .tc .vmem S344x8193 .f32) (harg1 : arg1.IsWhole) (arg2 : Memref sig .tc .vmem S8193x512 .f32) (harg2 : arg2.IsWhole) (arg3 : Memref sig .tc .vmem S344x512 .f32) (harg3 : arg3.IsWhole) (arg4 : Memref sig .tc .vmem S8192x512 .bf16) (harg4 : arg4.IsWhole) (hc : isFirst i)
    (x0 : Vec F S344x8193 .f32) (x1 : Vec F S8193x512 .f32) :
    Σ' (L3 : List (View.Piece (Elt F) S344x512 .f32)), { LS : List (View.Piece (Elt F) S8192x512 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc0__mm_body i arg1 harg1 arg2 harg2 arg3 harg3 arg4 harg4) K } := by
  refine ⟨?_, ?_, fun E K => ?run⟩
  case run =>
    simp only [cc0__mm_body_eq_skeleton]; unfold cc0__mm_body_skel
    simp only [k0_part1_eq_skeleton]
    unfold owns
    iintro ⟨⟨%f0, %hf0, H0⟩, ⟨%f1, %hf1, H1⟩, ⟨%d3, %f3, -, H3⟩, ⟨%d4, %f4, -, H4⟩, Hk⟩
    obtain rfl := harg1.eq_unread hf0; obtain rfl := harg2.eq_unread hf1
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    iexists _; iexact H4

set_option maxHeartbeats 1000000 in
/-- At a later grid point: the same with the scratch at `xs`, read and left as found. -/
noncomputable def runLater (c : Dev nD) (i : grid0.Coords) (arg1 : Memref sig .tc .vmem S344x8193 .f32) (harg1 : arg1.IsWhole) (arg2 : Memref sig .tc .vmem S8193x512 .f32) (harg2 : arg2.IsWhole) (arg3 : Memref sig .tc .vmem S344x512 .f32) (harg3 : arg3.IsWhole) (arg4 : Memref sig .tc .vmem S8192x512 .bf16) (harg4 : arg4.IsWhole) (hc : ¬isFirst i)
    (x0 : Vec F S344x8193 .f32) (x1 : Vec F S8193x512 .f32) (xs : Vec F S8192x512 .bf16) :
    { L3 : List (View.Piece (Elt F) S344x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ owns (c : Thread nD τ) arg4 fullShare xs) -∗ K ⟨⟩))
          ⊢ wp frame (wpE (defs₀ (F := F)) Variants.none c none) E (cc0__mm_body i arg1 harg1 arg2 harg2 arg3 harg3 arg4 harg4) K } := by
  refine ⟨?_, fun E K => ?run⟩
  case run =>
    simp only [cc0__mm_body_eq_skeleton]; unfold cc0__mm_body_skel
    simp only [k0_part1_eq_skeleton]
    unfold owns
    iintro ⟨⟨%f0, %hf0, H0⟩, ⟨%f1, %hf1, H1⟩, ⟨%d3, %f3, -, H3⟩, ⟨%f4, %hf4, H4⟩, Hk⟩
    obtain rfl := harg1.eq_unread hf0; obtain rfl := harg2.eq_unread hf1; obtain rfl := harg4.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    iexists _; isplitr; · ipureintro; exact harg4.read_unread _
    iexact H4

end Cert.Kernel.Body

end
-- ==== Proof.BodyValBits.lean ====
/-
  What the body of `Kernel` leaves, as pure functions of what it found.
  `xsOf x1`: the scratch after the first grid point — the first 8192 rows of xᵀ, narrowed.
  `outOf x0 x1 xs`: the result block — the outer product of the Wᵀ block's last column with xᵀ's last row, plus the
  four products of the block's 2048-wide column bands with the scratch's matching 2048-high row bands.
  The stores the body's runs list read back as exactly these, whatever the buffers are.
-/
import proofs.«105214_g76794015252828_cont_sun_c4_578_17_alg».proof.Proof.BodyRunBits
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

theorem zero2 : (![0, 0] : Fin 2 → Nat) = fun _ => 0 := funext fun a => by fin_cases a <;> rfl

/-- The scratch after the first grid point: rows 0‥8191 of xᵀ, each word narrowed. -/
def xsOf (x1 : Vec F S8193x512 .f32) : Vec F S8192x512 .bf16 :=
  k0_pay2 (View.ld x1 (Rect.unit (s := S8193x512) ![0, 0] S8192x512.size inb_S8193x512_S8192x512_0_0))

/-- The result block from the Wᵀ block `x0`, xᵀ `x1` and the scratch `xs`. -/
def outOf (x0 : Vec F S344x8193 .f32) (x1 : Vec F S8193x512 .f32) (xs : Vec F S8192x512 .bf16) : Vec F S344x512 .f32 :=
  k0_pay1
    (k0_pay3 (View.ld x0 (Rect.unit (s := S344x8193) ![0, 8192] S344x1.size inb_S344x8193_S344x1_0_8192)) (View.ld x1 (Rect.unit (s := S8193x512) ![8192, 0] S1x512.size inb_S8193x512_S1x512_8192_0))
      (View.ld x0 (Rect.unit (s := S344x8193) ![0, 0] S344x2048.size inb_S344x8193_S344x2048_0_0)) (View.ld xs (Rect.unit (s := S8192x512) ![0, 0] S2048x512.size inb_S8192x512_S2048x512_0_0))
      (View.ld x0 (Rect.unit (s := S344x8193) ![0, 2048] S344x2048.size inb_S344x8193_S344x2048_0_2048)) (View.ld xs (Rect.unit (s := S8192x512) ![2048, 0] S2048x512.size inb_S8192x512_S2048x512_2048_0))
      (View.ld x0 (Rect.unit (s := S344x8193) ![0, 4096] S344x2048.size inb_S344x8193_S344x2048_0_4096)) (View.ld xs (Rect.unit (s := S8192x512) ![4096, 0] S2048x512.size inb_S8192x512_S2048x512_4096_0)))
    (k0_pay4 (View.ld x0 (Rect.unit (s := S344x8193) ![0, 6144] S344x2048.size inb_S344x8193_S344x2048_0_6144)))
    (View.ld xs (Rect.unit (s := S8192x512) ![6144, 0] S2048x512.size inb_S8192x512_S2048x512_6144_0))
    (constant S344x512 .f32 0x00000000#32)

/-- A band of the scratch loaded after one store of the whole scratch reads that store's payload on the band. -/
theorem readCov_whole {sg : RefSig} {κ : Kind} {sp : Space} (v : View sg κ sp S8192x512 .bf16)
    (inb : ∀ a, (![0, 0] : Fin 2 → Nat) a + S8192x512.size a ≤ S8192x512.size a)
    (w : S8192x512.Idx → Elt F .bf16) (r : Rect S8192x512) :
    v.readCov [(⟨Rect.unit (s := S8192x512) ![0, 0] S8192x512.size inb, w⟩ : View.Piece (Elt F) S8192x512 .bf16)] r.toLoadRect = View.ld w r := by
  rw [View.readCov_eq_canon', View.canon_unit_zero (S := S8192x512) zero2]

variable (c : Dev nD) (i : grid0.Coords) (arg1 : Memref sig .tc .vmem S344x8193 .f32) (harg1 : arg1.IsWhole) (arg2 : Memref sig .tc .vmem S8193x512 .f32) (harg2 : arg2.IsWhole) (arg3 : Memref sig .tc .vmem S344x512 .f32) (harg3 : arg3.IsWhole) (arg4 : Memref sig .tc .vmem S8192x512 .bf16) (harg4 : arg4.IsWhole)

/-- The first point's one store into the scratch covers it, -/
theorem first_scratch_cover (hc : isFirst i) (x0 : Vec F S344x8193 .f32) (x1 : Vec F S8193x512 .f32) :
    ∀ y, ∃ p ∈ (runFirst c i arg1 harg1 arg2 harg2 arg3 harg3 arg4 harg4 hc x0 x1).2.1, y ∈ p.1.set := by
  unfold runFirst; dsimp only; sl_unfold_words
  intro y
  refine ⟨⟨_, _⟩, List.mem_singleton_self _, ?_⟩
  exact View.mem_set_unit_zero (S := S8192x512) zero2 inb_S8192x512_S8192x512_0_0 y

/-- and leaves `xsOf x1`. -/
theorem first_scratch (hc : isFirst i) (x0 : Vec F S344x8193 .f32) (x1 : Vec F S8193x512 .f32) :
    View.canon (runFirst c i arg1 harg1 arg2 harg2 arg3 harg3 arg4 harg4 hc x0 x1).2.1 = xsOf x1 := by
  unfold runFirst; dsimp only; sl_unfold_words
  rw [View.canon_unit_zero zero2]
  simp only [View.readAt_eq_ld, harg2.read_unread]
  rfl

/-- The first point's one store into the result block covers it, -/
theorem first_out_cover (hc : isFirst i) (x0 : Vec F S344x8193 .f32) (x1 : Vec F S8193x512 .f32) :
    ∀ y, ∃ p ∈ (runFirst c i arg1 harg1 arg2 harg2 arg3 harg3 arg4 harg4 hc x0 x1).1, y ∈ p.1.set := by
  unfold runFirst; dsimp only
  intro y
  refine ⟨⟨_, _⟩, List.mem_singleton_self _, ?_⟩
  exact View.mem_set_unit_zero (S := S344x512) zero2 inb_S344x512_S344x512_0_0 y

/-- and leaves `outOf` of the inputs and the scratch just written. -/
theorem first_out (hc : isFirst i) (x0 : Vec F S344x8193 .f32) (x1 : Vec F S8193x512 .f32) :
    View.canon (runFirst c i arg1 harg1 arg2 harg2 arg3 harg3 arg4 harg4 hc x0 x1).1 = outOf x0 x1 (xsOf x1) := by
  unfold runFirst; dsimp only; sl_unfold_words
  rw [View.canon_unit_zero zero2]
  simp only [View.readAt_eq_ld, harg1.read_unread, harg2.read_unread]
  rw [readCov_whole arg4.view, readCov_whole arg4.view, readCov_whole arg4.view, readCov_whole arg4.view]
  rfl

/-- A later point's one store into the result block covers it, -/
theorem later_out_cover (hc : ¬isFirst i) (x0 : Vec F S344x8193 .f32) (x1 : Vec F S8193x512 .f32) (xs : Vec F S8192x512 .bf16) :
    ∀ y, ∃ p ∈ (runLater c i arg1 harg1 arg2 harg2 arg3 harg3 arg4 harg4 hc x0 x1 xs).1, y ∈ p.1.set := by
  unfold runLater; dsimp only
  intro y
  refine ⟨⟨_, _⟩, List.mem_singleton_self _, ?_⟩
  exact View.mem_set_unit_zero (S := S344x512) zero2 inb_S344x512_S344x512_0_0 y

/-- and leaves `outOf` of the inputs and the scratch as found. -/
theorem later_out (hc : ¬isFirst i) (x0 : Vec F S344x8193 .f32) (x1 : Vec F S8193x512 .f32) (xs : Vec F S8192x512 .bf16) :
    View.canon (runLater c i arg1 harg1 arg2 harg2 arg3 harg3 arg4 harg4 hc x0 x1 xs).1 = outOf x0 x1 xs := by
  unfold runLater; dsimp only; sl_unfold_words
  rw [View.canon_unit_zero zero2]
  simp only [View.readAt_eq_ld, harg1.read_unread, harg2.read_unread, harg4.read_unread]
  rfl

end Cert.Kernel.Body

end
-- ==== Proof.BodyBits.lean ====
/-
  The pipeline's proof data for `Kernel` and the body's obligation at every grid point.
  The grid has six points; point t stages rows 344·t ‥ 344·t+343 of Wᵀ (the last block runs 15 rows past the array's
  2049 rows: those rows of the staging buffer hold words nothing names), xᵀ whole (fetched once), and writes back the
  same rows of the result. The scratch is written at point 0 and read at every point, so from point 1 on the region's
  invariant names its contents. After the body at point t the result's staging buffer holds `outOf` of the Wᵀ block as
  found, xᵀ and the scratch.
-/
import proofs.«105214_g76794015252828_cont_sun_c4_578_17_alg».proof.Proof.BodyValBits
import proofs.«105214_g76794015252828_cont_sun_c4_578_17_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, and the scratch -/

abbrev ms0 (t : Fin cfg0.N) : Memref sig .tc .vmem S344x8193 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8193x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S344x512 .f32 := win0_2.stage (cfg0.slots t 2)
abbrev hs2 (t : Fin cfg0.N) : (ms2 t).IsWhole := hstage0_2 ((cfg0.slots t 2).cast nbuf0_2)
abbrev scM : Memref sig .tc .vmem S8192x512 .bf16 := Memref.whole cc0_scratch0

/-- The region's plain invariant: the scratch at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the buffers hold -/

/-- The Wᵀ block of point `t` filled out to the staging buffer's 344 rows: the rows inside the array, and a fixed
    word on the rows past its end (which no result inside the array reads). -/
def wfull (c : Dev nD) (t : Fin cfg0.N) : Vec F S344x8193 .f32 :=
  win0_0.fill (grid0.coords t) (fun _ => Scalar.ofBits .f32 0#32) (iblk m c 0 t)

/-- The scratch from point 1 on: what point 0 stored, rows 0‥8191 of xᵀ narrowed. -/
def xs0 (c : Dev nD) : Vec F S8192x512 .bf16 := xsOf (iblk m c 1 t0_0)

/-- The result block after the body at point `t`. -/
def outAt (c : Dev nD) (t : Fin cfg0.N) : Vec F S344x512 .f32 := outOf (wfull m c t) (iblk m c 1 t) (xs0 m c)

/-- The region invariant before position `n`: the plain one before the first point; afterwards the scratch at
    `xs0` and the generator register at some state. -/
def PhiS (c : Dev nD) : ℕ → sProp 𝕄
  | 0 => Pipeline.ΦA spec0 c
  | _ + 1 => iprop(iprop(owns (c : Thread nD τ) scM fullShare (xs0 m c)) ∗ (∃ r, prngReg c r))

theorem PhiS_succ (c : Dev nD) (n : ℕ) :
    PhiS m c (n + 1) = iprop(iprop(owns (c : Thread nD τ) scM fullShare (xs0 m c)) ∗ (∃ r, prngReg c r)) := rfl

theorem PhiS_pos (c : Dev nD) (n : ℕ) (hn : n ≠ 0) :
    PhiS m c n = iprop(iprop(owns (c : Thread nD τ) scM fullShare (xs0 m c)) ∗ (∃ r, prngReg c r)) := by
  cases n with
  | zero => exact absurd rfl hn
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => wfull m c t
    | ⟨1, _⟩ => iblk m c 1 t
    | ⟨2, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = wfull m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

/-- The result's window is never fetched. -/
theorem fetch0_2 : ∀ t : Fin cfg0.N, (cfg0.win 2).fetch t = false :=
  (by decide +kernel : ∀ t : Fin grid0.N, win0_2.fetch t = false)

/-- What the body finds: the Wᵀ block just fetched — the array's rows, `d` past its end —, -/
theorem before_0 (c : Dev nD) (t : Fin cfg0.N) (d) :
    (dats m 0 c).before 0 t d = win0_0.fill (grid0.coords t) d (iblk m c 0 t) := by
  unfold Dat.before; rw [if_pos (fetch0_0 t)]; rfl
/-- xᵀ, fetched at point 0 and kept, -/
theorem before_1 (c : Dev nD) (t : Fin cfg0.N) (d) : (dats m 0 c).before 1 t d = iblk m c 1 t :=
  before0_1_of m (dats m 0 c) (A_eq m c 1) (after_1 m c) t d
/-- and the result's buffer at contents nothing names. -/
theorem before_2 (c : Dev nD) (t : Fin cfg0.N) (d) : (dats m 0 c).before 2 t d = d := by
  unfold Dat.before
  rw [if_neg (by rw [fetch0_2 t]; exact Bool.false_ne_true)]
  by_cases h0 : t.val = 0
  · rw [if_pos h0]
  · rw [if_neg h0]; exact if_pos (flush0_2 _)

/-! ## The body at a generic point -/

/-- What the body is called with at point `t`: the invariant, the Wᵀ block as fetched, xᵀ, the result's buffer at
    anything; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare (win0_0.fill (grid0.coords t) d (iblk m c 0 t)))
    ∗ owns (c : Thread nD τ) (ms1 t) fullShare (iblk m c 1 t)
    ∗ (∃ X, owns (c : Thread nD τ) (ms2 t) fullShare X))

/-- and what it returns: the next invariant, the inputs as found, the result's buffer at `outOf` of them. -/
def bodyPost (c : Dev nD) (t : Fin cfg0.N) : sProp 𝕄 :=
  iprop((dats m 0 c).Φ t.succ ∗ (dats m 0 c).owesAt () t.succ
    ∗ (∃ d, iprop(owns (c : Thread nD τ) (ms0 t) fullShare (win0_0.fill (grid0.coords t) d (iblk m c 0 t))
        ∗ owns (c : Thread nD τ) (ms2 t) fullShare (outOf (win0_0.fill (grid0.coords t) d (iblk m c 0 t)) (iblk m c 1 t) (xs0 m c))))
    ∗ owns (c : Thread nD τ) (ms1 t) fullShare (iblk m c 1 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) from rfl, PhiS_succ,
    show (dats m 0 c).Φ t.castSucc = PhiS m c t.val from by dsimp only [dats]; simp only [Fin.coe_castSucc]]
  by_cases h0 : t.val = 0
  · obtain rfl : t = t0_0 := Fin.ext h0
    rw [show PhiS m c (t0_0 : Fin cfg0.N).val = Pipeline.ΦA spec0 c from rfl, PhiA_eq]
    iintro ⟨⟨HS, Hg⟩, Ho, ⟨%d0, H0⟩, H1, H2⟩
    iapply ((runFirst c (grid0.coords t0_0) (ms0 t0_0) (hs0 t0_0) (ms1 t0_0) (hs1 t0_0) (ms2 t0_0) (hs2 t0_0) scM (Memref.isWhole_whole _)
      ((isFirst_iff t0_0).mpr rfl) (win0_0.fill (grid0.coords t0_0) d0 (iblk m c 0 t0_0)) (iblk m c 1 t0_0)).2.2 Set.univ _)
    isplitl [H0]; · iexact H0
    isplitl [H1]; · iexact H1
    isplitl [H2]; · iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro
        rw [View.read_writes_eq_canon _ _ _ (first_scratch_cover c _ _ _ _ _ _ _ _ _ _ _ _), first_scratch]
        rfl
      iexact Hg
    isplitl [Ho]; · iexact Ho
    isplitr [H1]
    · iexists d0
      isplitl [H0]; · iexact H0
      unfold owns; iexists _; isplitr
      swap; · iexact H2
      ipureintro
      rw [View.read_writes_eq_canon _ _ _ (first_out_cover c _ _ _ _ _ _ _ _ _ _ _ _), first_out]
      rfl
    iexact H1
  · rw [PhiS_pos m c t.val h0]
    iintro ⟨⟨HS, Hg⟩, Ho, ⟨%d0, H0⟩, H1, H2⟩
    iapply ((runLater c (grid0.coords t) (ms0 t) (hs0 t) (ms1 t) (hs1 t) (ms2 t) (hs2 t) scM (Memref.isWhole_whole _)
      (fun h => h0 ((isFirst_iff t).mp h)) (win0_0.fill (grid0.coords t) d0 (iblk m c 0 t)) (iblk m c 1 t) (xs0 m c)).2 Set.univ _)
    isplitl [H0]; · iexact H0
    isplitl [H1]; · iexact H1
    isplitl [H2]; · iexact H2
    isplitl [HS]; · iexact HS
    iintro ⟨H0, H1, ⟨%e2, H2⟩, HS⟩
    isplitl [HS Hg]
    · isplitl [HS]; · iexact HS
      iexact Hg
    isplitl [Ho]; · iexact Ho
    isplitr [H1]
    · iexists d0
      isplitl [H0]; · iexact H0
      unfold owns; iexists _; isplitr
      swap; · iexact H2
      ipureintro
      rw [View.read_writes_eq_canon _ _ _ (later_out_cover c _ _ _ _ _ _ _ _ _ _ _ _ _), later_out]
    iexact H1

/-- Row locality of the result block: its rows inside the array do not depend on what the Wᵀ staging buffer holds
    past the array's end. (True of a matrix product — row a of the result reads row a of the left factor only — and
    needed only where the last block overhangs the array.) -/
def RowLocal (c : Dev nD) : Prop := ∀ (t : Fin cfg0.N) (d : Vec F S344x8193 .f32),
  win0_2.cut (grid0.coords t) (outOf (win0_0.fill (grid0.coords t) d (iblk m c 0 t)) (iblk m c 1 t) (xs0 m c))
    = win0_2.cut (grid0.coords t) (outAt m c t)

end Cert.Kernel.Body

end
-- ==== Proof.LaunchBits.lean ====
/-
  The launch of `Kernel`'s one region: the body's obligation at every grid point in the form the pipeline asks — each
  buffer whose last block overhangs its array stated on the rows inside the array only —, what the region's invariant
  is before the first point and after the last, and the run of the whole program: every weakly fair execution
  terminates without fault, the result array holding what the six write-backs left and every other buffer what the
  transposes after the region leave. A second form says nothing of the result (enough for "the arguments end
  unchanged") and needs no fact about the arithmetic.
-/
import proofs.«105214_g76794015252828_cont_sun_c4_578_17_alg».proof.Proof.BodyBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- With the result block's rows inside the array independent of the Wᵀ buffer's rows past the array (`RowLocal`),
    the body leaves at every point what the proof data names, on the rows the transfers move. -/
theorem body_obligation (c : Dev nD) (hloc : RowLocal m c) :
    BodyObligationLoose (dats (F := F) m 0 c) (defs₀ (F := F)) Variants.none () Set.univ := fun t => by
  rw [bigSep_W0, bigSep_W0]
  simp only
  refine BIBase.Entails.trans ?_ ((sound_body m c t).trans (wp_mono _ _ _ fun _ => ?_))
  · unfold bodyPre
    iintro ⟨HΦ, Ho, ⟨%d0, H0⟩, ⟨%d1, H1⟩, ⟨%d2, H2⟩⟩
    rw [before_0 m c t d0, before_1 m c t d1, before_2 m c t d2]
    isplitl [HΦ]; · iexact HΦ
    isplitl [Ho]; · iexact Ho
    isplitl [H0]; · iexists d0; iexact H0
    isplitl [H1]; · iexact H1
    iexists d2; iexact H2
  · unfold bodyPost
    iintro ⟨HΦ, Ho, ⟨%d0, H0, H2⟩, H1⟩
    isplitl [HΦ]; · iexact HΦ
    isplitl [Ho]; · iexact Ho
    isplitl [H0]
    · iexists d0
      change _ ⊢ owns (c : Thread nD τ) (ms0 t) fullShare (win0_0.fill (grid0.coords t) d0 (win0_0.cut (grid0.coords t) ((dats m 0 c).after 0 t)))
      rw [after_0]; unfold wfull; rw [win0_0.cut_fill]; try iexact H0
    isplitl [H1]
    · change _ ⊢ owns (c : Thread nD τ) (ms1 t) fullShare ((dats m 0 c).after 1 t)
      rw [after_1]; try iexact H1
    · iexists outOf (win0_0.fill (grid0.coords t) d0 (iblk m c 0 t)) (iblk m c 1 t) (xs0 m c)
      change _ ⊢ owns (c : Thread nD τ) (ms2 t) fullShare (win0_2.fill (grid0.coords t) (outOf (win0_0.fill (grid0.coords t) d0 (iblk m c 0 t)) (iblk m c 1 t) (xs0 m c)) (win0_2.cut (grid0.coords t) ((dats m 0 c).after 2 t)))
      rw [after_2, ← hloc t d0, win0_2.fill_cut]; try iexact H2

/-- The windows whose contents the second form forgets: the result's. -/
abbrev fgtOut : Fin cfg0.W → Bool := fun | 0 => false | 1 => false | 2 => true | ⟨_ + 3, h⟩ => absurd h (Nat.not_lt.2 (Nat.le_add_left _ _))

/-- The same obligation with the result's buffer handed over and taken back at anything. -/
theorem body_obligation_forget (c : Dev nD) :
    BodyObligationLoose (dats (F := F) m 0 c) (defs₀ (F := F)) Variants.none () Set.univ fgtOut := fun t => by
  rw [bigSep_W0, bigSep_W0]
  simp only
  refine BIBase.Entails.trans ?_ ((sound_body m c t).trans (wp_mono _ _ _ fun _ => ?_))
  · unfold bodyPre
    iintro ⟨HΦ, Ho, ⟨%d0, H0⟩, ⟨%d1, H1⟩, ⟨%d2, H2⟩⟩
    rw [before_0 m c t d0, before_1 m c t d1]
    isplitl [HΦ]; · iexact HΦ
    isplitl [Ho]; · iexact Ho
    isplitl [H0]; · iexists d0; iexact H0
    isplitl [H1]; · iexact H1
    iexists d2; iexact H2
  · unfold bodyPost
    iintro ⟨HΦ, Ho, ⟨%d0, H0, H2⟩, H1⟩
    isplitl [HΦ]; · iexact HΦ
    isplitl [Ho]; · iexact Ho
    isplitl [H0]
    · iexists d0
      change _ ⊢ owns (c : Thread nD τ) (ms0 t) fullShare (win0_0.fill (grid0.coords t) d0 (win0_0.cut (grid0.coords t) ((dats m 0 c).after 0 t)))
      rw [after_0]; unfold wfull; rw [win0_0.cut_fill]; try iexact H0
    isplitl [H1]
    · change _ ⊢ owns (c : Thread nD τ) (ms1 t) fullShare ((dats m 0 c).after 1 t)
      rw [after_1]; try iexact H1
    · iexists _; iexact H2

/-! ## The invariant at the region's ends -/

theorem hin (c : Dev nD) : Pipeline.ΦA spec0 c ⊢ (dats m 0 c).Φ 0 := by
  rw [show (dats m 0 c).Φ 0 = PhiS m c 0 from rfl]
  exact BIBase.Entails.rfl

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 6 := N_0; omega), PhiA_eq]
  iintro ⟨HS, Hg⟩
  isplitl [HS]
  · iexists _; iexact HS
  iexact Hg

/-! ## The runs -/

set_option backward.isDefEq.respectTransparency.types false in
/-- The run with the result named. -/
theorem run_main (hloc : ∀ c, RowLocal m c) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c (hloc c)) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The buffers the lines after the region write. -/
abbrev tailWrites : Finset (Ref sig .tc) := {main_v3}

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  rw [Finset.mem_singleton]
  by_contra hne
  exact StableHlo.devRef_ne_of_ne hne hb

set_option backward.isDefEq.respectTransparency.types false in
/-- The run saying nothing of the result. -/
theorem run_forget :
    θ_run defs (onTc (τ := τ) (main (F := F))) (s₀ m ρ)
      (Pipeline.RDat.FramePostR cfg0 (fun c => (dats m 0 c).toRForget fgtOut) tailWrites (fun c b => V0 m c (Proc.devRef .tc b))) :=
  Pipeline.RDat.θ_run_frame_around_T_track cfgs (0 : Fin 1) launch0 defs₀ Variants.none (fun c => (dats m 0 c).toRForget fgtOut) tailWrites m ρ main
    (hbody := fun c => (body_obligation_forget m c).toRForget) (hshare := fun c => (dats m 0 c).share_full fun _ => rfl)
    (howed := fun _ _ => rfl) (V₀ := V0 m) (opss := [hostOps1]) (hsub := sfx_sub) (hfresh := sfx_fresh) (hkeep := sfx_keeps)
    (hT := tail_writes)
    (hmain := hmain m Variants.none) (hA := A_eq m) (hin := hin m) (hout := hout m)

/-- THE FRAME: every weakly fair execution terminates without fault and the two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c)⟩)
    (run_forget m ρ)

end Cert.Kernel.Body

end
-- ==== Proof.BodyRunIdeal.lean ====
/-
  The kernel body of `KernelIdeal` on any four whole buffers, at either kind of grid point.
  The body reads a block of rows of Wᵀ (344 × 8193), the whole of xᵀ (8193 × 512) and a scratch of 8192 × 512;
  at the first grid point it first stores the first 8192 rows of xᵀ, narrowed, into the scratch; at every point it
  then stores into the result block (344 × 512) the outer product of Wᵀ's last column with xᵀ's last row plus four
  products of a 344 × 2048 column band of Wᵀ with the matching 2048 × 512 row band of the scratch.
  Stated here, for any float instance: the body runs without fault, leaves the two inputs as found, and leaves the
  result block (and at the first point the scratch) holding the listed stores.
-/
import proofs.«105214_g76794015252828_cont_sun_c4_578_17_alg».proof.Proof.Gen.KernelIdeal.Launch
import proofs.«105214_g76794015252828_cont_sun_c4_578_17_alg».proof.Proof.Gen.KernelIdeal.Skeleton
import proofs.«105214_g76794015252828_cont_sun_c4_578_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch condition, from the grid coordinate: "this is grid point 0". -/
abbrev isFirst (i : grid0.Coords) : Prop :=
  (Scalar.cmpi .ne (Scalar.extui (Scalar.cmpi .eq (BitVec.ofNat 32 (i 0).val) 0#32)) 0#32) = 1#1

/-- Over the six grid points it holds exactly at point 0. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- At the first grid point: from the Wᵀ block at `x0`, xᵀ at `x1`, the result block and the scratch at anything,
    the body ends with the inputs as found and the result block and the scratch each holding its stores. -/
noncomputable def runFirst (c : Dev nD) (i : grid0.Coords) (arg1 : Memref sig .tc .vmem S344x8193 .f32) (harg1 : arg1.IsWhole) (arg2 : Memref sig .tc .vmem S8193x512 .f32) (harg2 : arg2.IsWhole) (arg3 : Memref sig .tc .vmem S344x512 .f32) (harg3 : arg3.IsWhole) (arg4 : Memref sig .tc .vmem S8192x512 .bf16) (harg4 : arg4.IsWhole) (hc : isFirst i)
    (x0 : Vec F S344x8193 .f32) (x1 : Vec F S8193x512 .f32) :
    Σ' (L3 : List (View.Piece (Elt F) S344x512 .f32)), { LS : List (View.Piece (Elt F) S8192x512 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ (∃ f, arg4.view.loc (c : Thread nD τ) ↦[arg4.view.set]{fullShare} arg4.view.writes (Elt F) f LS)) -∗ K ⟨⟩))
          ⊢ wp frame (wpE (defs₀ (F := F)) Variants.none c none) E (cc0__mm_body i arg1 harg1 arg2 harg2 arg3 harg3 arg4 harg4) K } := by
  refine ⟨?_, ?_, fun E K => ?run⟩
  case run =>
    simp only [cc0__mm_body_eq_skeleton]; unfold cc0__mm_body_skel
    simp only [k0_part1_eq_skeleton]
    unfold owns
    iintro ⟨⟨%f0, %hf0, H0⟩, ⟨%f1, %hf1, H1⟩, ⟨%d3, %f3, -, H3⟩, ⟨%d4, %f4, -, H4⟩, Hk⟩
    obtain rfl := harg1.eq_unread hf0; obtain rfl := harg2.eq_unread hf1
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    iexists _; iexact H4

set_option maxHeartbeats 1000000 in
/-- At a later grid point: the same with the scratch at `xs`, read and left as found. -/
noncomputable def runLater (c : Dev nD) (i : grid0.Coords) (arg1 : Memref sig .tc .vmem S344x8193 .f32) (harg1 : arg1.IsWhole) (arg2 : Memref sig .tc .vmem S8193x512 .f32) (harg2 : arg2.IsWhole) (arg3 : Memref sig .tc .vmem S344x512 .f32) (harg3 : arg3.IsWhole) (arg4 : Memref sig .tc .vmem S8192x512 .bf16) (harg4 : arg4.IsWhole) (hc : ¬isFirst i)
    (x0 : Vec F S344x8193 .f32) (x1 : Vec F S8193x512 .f32) (xs : Vec F S8192x512 .bf16) :
    { L3 : List (View.Piece (Elt F) S344x512 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L3) ∗ owns (c : Thread nD τ) arg4 fullShare xs) -∗ K ⟨⟩))
          ⊢ wp frame (wpE (defs₀ (F := F)) Variants.none c none) E (cc0__mm_body i arg1 harg1 arg2 harg2 arg3 harg3 arg4 harg4) K } := by
  refine ⟨?_, fun E K => ?run⟩
  case run =>
    simp only [cc0__mm_body_eq_skeleton]; unfold cc0__mm_body_skel
    simp only [k0_part1_eq_skeleton]
    unfold owns
    iintro ⟨⟨%f0, %hf0, H0⟩, ⟨%f1, %hf1, H1⟩, ⟨%d3, %f3, -, H3⟩, ⟨%f4, %hf4, H4⟩, Hk⟩
    obtain rfl := harg1.eq_unread hf0; obtain rfl := harg2.eq_unread hf1; obtain rfl := harg4.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H3]; · iexists _; iexact H3
    iexists _; isplitr; · ipureintro; exact harg4.read_unread _
    iexact H4

end Cert.KernelIdeal.Body

end
-- ==== Proof.BodyValIdeal.lean ====
/-
  What the body of `KernelIdeal` leaves, as pure functions of what it found.
  `xsOf x1`: the scratch after the first grid point — the first 8192 rows of xᵀ, narrowed.
  `outOf x0 x1 xs`: the result block — the outer product of the Wᵀ block's last column with xᵀ's last row, plus the
  four products of the block's 2048-wide column bands with the scratch's matching 2048-high row bands.
  The stores the body's runs list read back as exactly these, whatever the buffers are.
-/
import proofs.«105214_g76794015252828_cont_sun_c4_578_17_alg».proof.Proof.BodyRunIdeal
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

theorem zero2 : (![0, 0] : Fin 2 → Nat) = fun _ => 0 := funext fun a => by fin_cases a <;> rfl

/-- The scratch after the first grid point: rows 0‥8191 of xᵀ, each word narrowed. -/
def xsOf (x1 : Vec F S8193x512 .f32) : Vec F S8192x512 .bf16 :=
  k0_pay2 (View.ld x1 (Rect.unit (s := S8193x512) ![0, 0] S8192x512.size inb_S8193x512_S8192x512_0_0))

/-- The result block from the Wᵀ block `x0`, xᵀ `x1` and the scratch `xs`. -/
def outOf (x0 : Vec F S344x8193 .f32) (x1 : Vec F S8193x512 .f32) (xs : Vec F S8192x512 .bf16) : Vec F S344x512 .f32 :=
  k0_pay1
    (k0_pay3 (View.ld x0 (Rect.unit (s := S344x8193) ![0, 8192] S344x1.size inb_S344x8193_S344x1_0_8192)) (View.ld x1 (Rect.unit (s := S8193x512) ![8192, 0] S1x512.size inb_S8193x512_S1x512_8192_0))
      (View.ld x0 (Rect.unit (s := S344x8193) ![0, 0] S344x2048.size inb_S344x8193_S344x2048_0_0)) (View.ld xs (Rect.unit (s := S8192x512) ![0, 0] S2048x512.size inb_S8192x512_S2048x512_0_0))
      (View.ld x0 (Rect.unit (s := S344x8193) ![0, 2048] S344x2048.size inb_S344x8193_S344x2048_0_2048)) (View.ld xs (Rect.unit (s := S8192x512) ![2048, 0] S2048x512.size inb_S8192x512_S2048x512_2048_0))
      (View.ld x0 (Rect.unit (s := S344x8193) ![0, 4096] S344x2048.size inb_S344x8193_S344x2048_0_4096)) (View.ld xs (Rect.unit (s := S8192x512) ![4096, 0] S2048x512.size inb_S8192x512_S2048x512_4096_0)))
    (k0_pay4 (View.ld x0 (Rect.unit (s := S344x8193) ![0, 6144] S344x2048.size inb_S344x8193_S344x2048_0_6144)))
    (View.ld xs (Rect.unit (s := S8192x512) ![6144, 0] S2048x512.size inb_S8192x512_S2048x512_6144_0))
    (constant S344x512 .f32 0x00000000#32)

/-- A band of the scratch loaded after one store of the whole scratch reads that store's payload on the band. -/
theorem readCov_whole {sg : RefSig} {κ : Kind} {sp : Space} (v : View sg κ sp S8192x512 .bf16)
    (inb : ∀ a, (![0, 0] : Fin 2 → Nat) a + S8192x512.size a ≤ S8192x512.size a)
    (w : S8192x512.Idx → Elt F .bf16) (r : Rect S8192x512) :
    v.readCov [(⟨Rect.unit (s := S8192x512) ![0, 0] S8192x512.size inb, w⟩ : View.Piece (Elt F) S8192x512 .bf16)] r.toLoadRect = View.ld w r := by
  rw [View.readCov_eq_canon', View.canon_unit_zero (S := S8192x512) zero2]

variable (c : Dev nD) (i : grid0.Coords) (arg1 : Memref sig .tc .vmem S344x8193 .f32) (harg1 : arg1.IsWhole) (arg2 : Memref sig .tc .vmem S8193x512 .f32) (harg2 : arg2.IsWhole) (arg3 : Memref sig .tc .vmem S344x512 .f32) (harg3 : arg3.IsWhole) (arg4 : Memref sig .tc .vmem S8192x512 .bf16) (harg4 : arg4.IsWhole)

/-- The first point's one store into the scratch covers it, -/
theorem first_scratch_cover (hc : isFirst i) (x0 : Vec F S344x8193 .f32) (x1 : Vec F S8193x512 .f32) :
    ∀ y, ∃ p ∈ (runFirst c i arg1 harg1 arg2 harg2 arg3 harg3 arg4 harg4 hc x0 x1).2.1, y ∈ p.1.set := by
  unfold runFirst; dsimp only; sl_unfold_words
  intro y
  refine ⟨⟨_, _⟩, List.mem_singleton_self _, ?_⟩
  exact View.mem_set_unit_zero (S := S8192x512) zero2 inb_S8192x512_S8192x512_0_0 y

/-- and leaves `xsOf x1`. -/
theorem first_scratch (hc : isFirst i) (x0 : Vec F S344x8193 .f32) (x1 : Vec F S8193x512 .f32) :
    View.canon (runFirst c i arg1 harg1 arg2 harg2 arg3 harg3 arg4 harg4 hc x0 x1).2.1 = xsOf x1 := by
  unfold runFirst; dsimp only; sl_unfold_words
  rw [View.canon_unit_zero zero2]
  simp only [View.readAt_eq_ld, harg2.read_unread]
  rfl

/-- The first point's one store into the result block covers it, -/
theorem first_out_cover (hc : isFirst i) (x0 : Vec F S344x8193 .f32) (x1 : Vec F S8193x512 .f32) :
    ∀ y, ∃ p ∈ (runFirst c i arg1 harg1 arg2 harg2 arg3 harg3 arg4 harg4 hc x0 x1).1, y ∈ p.1.set := by
  unfold runFirst; dsimp only
  intro y
  refine ⟨⟨_, _⟩, List.mem_singleton_self _, ?_⟩
  exact View.mem_set_unit_zero (S := S344x512) zero2 inb_S344x512_S344x512_0_0 y

/-- and leaves `outOf` of the inputs and the scratch just written. -/
theorem first_out (hc : isFirst i) (x0 : Vec F S344x8193 .f32) (x1 : Vec F S8193x512 .f32) :
    View.canon (runFirst c i arg1 harg1 arg2 harg2 arg3 harg3 arg4 harg4 hc x0 x1).1 = outOf x0 x1 (xsOf x1) := by
  unfold runFirst; dsimp only; sl_unfold_words
  rw [View.canon_unit_zero zero2]
  simp only [View.readAt_eq_ld, harg1.read_unread, harg2.read_unread]
  rw [readCov_whole arg4.view, readCov_whole arg4.view, readCov_whole arg4.view, readCov_whole arg4.view]
  rfl

/-- A later point's one store into the result block covers it, -/
theorem later_out_cover (hc : ¬isFirst i) (x0 : Vec F S344x8193 .f32) (x1 : Vec F S8193x512 .f32) (xs : Vec F S8192x512 .bf16) :
    ∀ y, ∃ p ∈ (runLater c i arg1 harg1 arg2 harg2 arg3 harg3 arg4 harg4 hc x0 x1 xs).1, y ∈ p.1.set := by
  unfold runLater; dsimp only
  intro y
  refine ⟨⟨_, _⟩, List.mem_singleton_self _, ?_⟩
  exact View.mem_set_unit_zero (S := S344x512) zero2 inb_S344x512_S344x512_0_0 y

/-- and leaves `outOf` of the inputs and the scratch as found. -/
theorem later_out (hc : ¬isFirst i) (x0 : Vec F S344x8193 .f32) (x1 : Vec F S8193x512 .f32) (xs : Vec F S8192x512 .bf16) :
    View.canon (runLater c i arg1 harg1 arg2 harg2 arg3 harg3 arg4 harg4 hc x0 x1 xs).1 = outOf x0 x1 xs := by
  unfold runLater; dsimp only; sl_unfold_words
  rw [View.canon_unit_zero zero2]
  simp only [View.readAt_eq_ld, harg1.read_unread, harg2.read_unread, harg4.read_unread]
  rfl

end Cert.KernelIdeal.Body

end
-- ==== Proof.BodyIdeal.lean ====
/-
  The pipeline's proof data for `KernelIdeal` and the body's obligation at every grid point.
  The grid has six points; point t stages rows 344·t ‥ 344·t+343 of Wᵀ (the last block runs 15 rows past the array's
  2049 rows: those rows of the staging buffer hold words nothing names), xᵀ whole (fetched once), and writes back the
  same rows of the result. The scratch is written at point 0 and read at every point, so from point 1 on the region's
  invariant names its contents. After the body at point t the result's staging buffer holds `outOf` of the Wᵀ block as
  found, xᵀ and the scratch.
-/
import proofs.«105214_g76794015252828_cont_sun_c4_578_17_alg».proof.Proof.BodyValIdeal
import proofs.«105214_g76794015252828_cont_sun_c4_578_17_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, and the scratch -/

abbrev ms0 (t : Fin cfg0.N) : Memref sig .tc .vmem S344x8193 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8193x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S344x512 .f32 := win0_2.stage (cfg0.slots t 2)
abbrev hs2 (t : Fin cfg0.N) : (ms2 t).IsWhole := hstage0_2 ((cfg0.slots t 2).cast nbuf0_2)
abbrev scM : Memref sig .tc .vmem S8192x512 .bf16 := Memref.whole cc0_scratch0

/-- The region's plain invariant: the scratch at some contents and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What the buffers hold -/

/-- The Wᵀ block of point `t` filled out to the staging buffer's 344 rows: the rows inside the array, and a fixed
    word on the rows past its end (which no result inside the array reads). -/
def wfull (c : Dev nD) (t : Fin cfg0.N) : Vec F S344x8193 .f32 :=
  win0_0.fill (grid0.coords t) (fun _ => Scalar.ofBits .f32 0#32) (iblk m c 0 t)

/-- The scratch from point 1 on: what point 0 stored, rows 0‥8191 of xᵀ narrowed. -/
def xs0 (c : Dev nD) : Vec F S8192x512 .bf16 := xsOf (iblk m c 1 t0_0)

/-- The result block after the body at point `t`. -/
def outAt (c : Dev nD) (t : Fin cfg0.N) : Vec F S344x512 .f32 := outOf (wfull m c t) (iblk m c 1 t) (xs0 m c)

/-- The region invariant before position `n`: the plain one before the first point; afterwards the scratch at
    `xs0` and the generator register at some state. -/
def PhiS (c : Dev nD) : ℕ → sProp 𝕄
  | 0 => Pipeline.ΦA spec0 c
  | _ + 1 => iprop(iprop(owns (c : Thread nD τ) scM fullShare (xs0 m c)) ∗ (∃ r, prngReg c r))

theorem PhiS_succ (c : Dev nD) (n : ℕ) :
    PhiS m c (n + 1) = iprop(iprop(owns (c : Thread nD τ) scM fullShare (xs0 m c)) ∗ (∃ r, prngReg c r)) := rfl

theorem PhiS_pos (c : Dev nD) (n : ℕ) (hn : n ≠ 0) :
    PhiS m c n = iprop(iprop(owns (c : Thread nD τ) scM fullShare (xs0 m c)) ∗ (∃ r, prngReg c r)) := by
  cases n with
  | zero => exact absurd rfl hn
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => wfull m c t
    | ⟨1, _⟩ => iblk m c 1 t
    | ⟨2, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = wfull m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outAt m c t := by dsimp only [dats]

/-- The result's window is never fetched. -/
theorem fetch0_2 : ∀ t : Fin cfg0.N, (cfg0.win 2).fetch t = false :=
  (by decide +kernel : ∀ t : Fin grid0.N, win0_2.fetch t = false)

/-- What the body finds: the Wᵀ block just fetched — the array's rows, `d` past its end —, -/
theorem before_0 (c : Dev nD) (t : Fin cfg0.N) (d) :
    (dats m 0 c).before 0 t d = win0_0.fill (grid0.coords t) d (iblk m c 0 t) := by
  unfold Dat.before; rw [if_pos (fetch0_0 t)]; rfl
/-- xᵀ, fetched at point 0 and kept, -/
theorem before_1 (c : Dev nD) (t : Fin cfg0.N) (d) : (dats m 0 c).before 1 t d = iblk m c 1 t :=
  before0_1_of m (dats m 0 c) (A_eq m c 1) (after_1 m c) t d
/-- and the result's buffer at contents nothing names. -/
theorem before_2 (c : Dev nD) (t : Fin cfg0.N) (d) : (dats m 0 c).before 2 t d = d := by
  unfold Dat.before
  rw [if_neg (by rw [fetch0_2 t]; exact Bool.false_ne_true)]
  by_cases h0 : t.val = 0
  · rw [if_pos h0]
  · rw [if_neg h0]; exact if_pos (flush0_2 _)

/-! ## The body at a generic point -/

/-- What the body is called with at point `t`: the invariant, the Wᵀ block as fetched, xᵀ, the result's buffer at
    anything; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare (win0_0.fill (grid0.coords t) d (iblk m c 0 t)))
    ∗ owns (c : Thread nD τ) (ms1 t) fullShare (iblk m c 1 t)
    ∗ (∃ X, owns (c : Thread nD τ) (ms2 t) fullShare X))

/-- and what it returns: the next invariant, the inputs as found, the result's buffer at `outOf` of them. -/
def bodyPost (c : Dev nD) (t : Fin cfg0.N) : sProp 𝕄 :=
  iprop((dats m 0 c).Φ t.succ ∗ (dats m 0 c).owesAt () t.succ
    ∗ (∃ d, iprop(owns (c : Thread nD τ) (ms0 t) fullShare (win0_0.fill (grid0.coords t) d (iblk m c 0 t))
        ∗ owns (c : Thread nD τ) (ms2 t) fullShare (outOf (win0_0.fill (grid0.coords t) d (iblk m c 0 t)) (iblk m c 1 t) (xs0 m c))))
    ∗ owns (c : Thread nD τ) (ms1 t) fullShare (iblk m c 1 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) from rfl, PhiS_succ,
    show (dats m 0 c).Φ t.castSucc = PhiS m c t.val from by dsimp only [dats]; simp only [Fin.coe_castSucc]]
  by_cases h0 : t.val = 0
  · obtain rfl : t = t0_0 := Fin.ext h0
    rw [show PhiS m c (t0_0 : Fin cfg0.N).val = Pipeline.ΦA spec0 c from rfl, PhiA_eq]
    iintro ⟨⟨HS, Hg⟩, Ho, ⟨%d0, H0⟩, H1, H2⟩
    iapply ((runFirst c (grid0.coords t0_0) (ms0 t0_0) (hs0 t0_0) (ms1 t0_0) (hs1 t0_0) (ms2 t0_0) (hs2 t0_0) scM (Memref.isWhole_whole _)
      ((isFirst_iff t0_0).mpr rfl) (win0_0.fill (grid0.coords t0_0) d0 (iblk m c 0 t0_0)) (iblk m c 1 t0_0)).2.2 Set.univ _)
    isplitl [H0]; · iexact H0
    isplitl [H1]; · iexact H1
    isplitl [H2]; · iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro
        rw [View.read_writes_eq_canon _ _ _ (first_scratch_cover c _ _ _ _ _ _ _ _ _ _ _ _), first_scratch]
        rfl
      iexact Hg
    isplitl [Ho]; · iexact Ho
    isplitr [H1]
    · iexists d0
      isplitl [H0]; · iexact H0
      unfold owns; iexists _; isplitr
      swap; · iexact H2
      ipureintro
      rw [View.read_writes_eq_canon _ _ _ (first_out_cover c _ _ _ _ _ _ _ _ _ _ _ _), first_out]
      rfl
    iexact H1
  · rw [PhiS_pos m c t.val h0]
    iintro ⟨⟨HS, Hg⟩, Ho, ⟨%d0, H0⟩, H1, H2⟩
    iapply ((runLater c (grid0.coords t) (ms0 t) (hs0 t) (ms1 t) (hs1 t) (ms2 t) (hs2 t) scM (Memref.isWhole_whole _)
      (fun h => h0 ((isFirst_iff t).mp h)) (win0_0.fill (grid0.coords t) d0 (iblk m c 0 t)) (iblk m c 1 t) (xs0 m c)).2 Set.univ _)
    isplitl [H0]; · iexact H0
    isplitl [H1]; · iexact H1
    isplitl [H2]; · iexact H2
    isplitl [HS]; · iexact HS
    iintro ⟨H0, H1, ⟨%e2, H2⟩, HS⟩
    isplitl [HS Hg]
    · isplitl [HS]; · iexact HS
      iexact Hg
    isplitl [Ho]; · iexact Ho
    isplitr [H1]
    · iexists d0
      isplitl [H0]; · iexact H0
      unfold owns; iexists _; isplitr
      swap; · iexact H2
      ipureintro
      rw [View.read_writes_eq_canon _ _ _ (later_out_cover c _ _ _ _ _ _ _ _ _ _ _ _ _), later_out]
    iexact H1

/-- Row locality of the result block: its rows inside the array do not depend on what the Wᵀ staging buffer holds
    past the array's end. (True of a matrix product — row a of the result reads row a of the left factor only — and
    needed only where the last block overhangs the array.) -/
def RowLocal (c : Dev nD) : Prop := ∀ (t : Fin cfg0.N) (d : Vec F S344x8193 .f32),
  win0_2.cut (grid0.coords t) (outOf (win0_0.fill (grid0.coords t) d (iblk m c 0 t)) (iblk m c 1 t) (xs0 m c))
    = win0_2.cut (grid0.coords t) (outAt m c t)

end Cert.KernelIdeal.Body

end
-- ==== Proof.LaunchIdeal.lean ====
/-
  The launch of `KernelIdeal`'s one region: the body's obligation at every grid point in the form the pipeline asks — each
  buffer whose last block overhangs its array stated on the rows inside the array only —, what the region's invariant
  is before the first point and after the last, and the run of the whole program: every weakly fair execution
  terminates without fault, the result array holding what the six write-backs left and every other buffer what the
  transposes after the region leave. A second form says nothing of the result (enough for "the arguments end
  unchanged") and needs no fact about the arithmetic.
-/
import proofs.«105214_g76794015252828_cont_sun_c4_578_17_alg».proof.Proof.BodyIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation -/

/-- With the result block's rows inside the array independent of the Wᵀ buffer's rows past the array (`RowLocal`),
    the body leaves at every point what the proof data names, on the rows the transfers move. -/
theorem body_obligation (c : Dev nD) (hloc : RowLocal m c) :
    BodyObligationLoose (dats (F := F) m 0 c) (defs₀ (F := F)) Variants.none () Set.univ := fun t => by
  rw [bigSep_W0, bigSep_W0]
  simp only
  refine BIBase.Entails.trans ?_ ((sound_body m c t).trans (wp_mono _ _ _ fun _ => ?_))
  · unfold bodyPre
    iintro ⟨HΦ, Ho, ⟨%d0, H0⟩, ⟨%d1, H1⟩, ⟨%d2, H2⟩⟩
    rw [before_0 m c t d0, before_1 m c t d1, before_2 m c t d2]
    isplitl [HΦ]; · iexact HΦ
    isplitl [Ho]; · iexact Ho
    isplitl [H0]; · iexists d0; iexact H0
    isplitl [H1]; · iexact H1
    iexists d2; iexact H2
  · unfold bodyPost
    iintro ⟨HΦ, Ho, ⟨%d0, H0, H2⟩, H1⟩
    isplitl [HΦ]; · iexact HΦ
    isplitl [Ho]; · iexact Ho
    isplitl [H0]
    · iexists d0
      change _ ⊢ owns (c : Thread nD τ) (ms0 t) fullShare (win0_0.fill (grid0.coords t) d0 (win0_0.cut (grid0.coords t) ((dats m 0 c).after 0 t)))
      rw [after_0]; unfold wfull; rw [win0_0.cut_fill]; try iexact H0
    isplitl [H1]
    · change _ ⊢ owns (c : Thread nD τ) (ms1 t) fullShare ((dats m 0 c).after 1 t)
      rw [after_1]; try iexact H1
    · iexists outOf (win0_0.fill (grid0.coords t) d0 (iblk m c 0 t)) (iblk m c 1 t) (xs0 m c)
      change _ ⊢ owns (c : Thread nD τ) (ms2 t) fullShare (win0_2.fill (grid0.coords t) (outOf (win0_0.fill (grid0.coords t) d0 (iblk m c 0 t)) (iblk m c 1 t) (xs0 m c)) (win0_2.cut (grid0.coords t) ((dats m 0 c).after 2 t)))
      rw [after_2, ← hloc t d0, win0_2.fill_cut]; try iexact H2

/-- The windows whose contents the second form forgets: the result's. -/
abbrev fgtOut : Fin cfg0.W → Bool := fun | 0 => false | 1 => false | 2 => true | ⟨_ + 3, h⟩ => absurd h (Nat.not_lt.2 (Nat.le_add_left _ _))

/-- The same obligation with the result's buffer handed over and taken back at anything. -/
theorem body_obligation_forget (c : Dev nD) :
    BodyObligationLoose (dats (F := F) m 0 c) (defs₀ (F := F)) Variants.none () Set.univ fgtOut := fun t => by
  rw [bigSep_W0, bigSep_W0]
  simp only
  refine BIBase.Entails.trans ?_ ((sound_body m c t).trans (wp_mono _ _ _ fun _ => ?_))
  · unfold bodyPre
    iintro ⟨HΦ, Ho, ⟨%d0, H0⟩, ⟨%d1, H1⟩, ⟨%d2, H2⟩⟩
    rw [before_0 m c t d0, before_1 m c t d1]
    isplitl [HΦ]; · iexact HΦ
    isplitl [Ho]; · iexact Ho
    isplitl [H0]; · iexists d0; iexact H0
    isplitl [H1]; · iexact H1
    iexists d2; iexact H2
  · unfold bodyPost
    iintro ⟨HΦ, Ho, ⟨%d0, H0, H2⟩, H1⟩
    isplitl [HΦ]; · iexact HΦ
    isplitl [Ho]; · iexact Ho
    isplitl [H0]
    · iexists d0
      change _ ⊢ owns (c : Thread nD τ) (ms0 t) fullShare (win0_0.fill (grid0.coords t) d0 (win0_0.cut (grid0.coords t) ((dats m 0 c).after 0 t)))
      rw [after_0]; unfold wfull; rw [win0_0.cut_fill]; try iexact H0
    isplitl [H1]
    · change _ ⊢ owns (c : Thread nD τ) (ms1 t) fullShare ((dats m 0 c).after 1 t)
      rw [after_1]; try iexact H1
    · iexists _; iexact H2

/-! ## The invariant at the region's ends -/

theorem hin (c : Dev nD) : Pipeline.ΦA spec0 c ⊢ (dats m 0 c).Φ 0 := by
  rw [show (dats m 0 c).Φ 0 = PhiS m c 0 from rfl]
  exact BIBase.Entails.rfl

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 6 := N_0; omega), PhiA_eq]
  iintro ⟨HS, Hg⟩
  isplitl [HS]
  · iexists _; iexact HS
  iexact Hg

/-! ## The runs -/

set_option backward.isDefEq.respectTransparency.types false in
/-- The run with the result named. -/
theorem run_main (hloc : ∀ c, RowLocal m c) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c (hloc c)) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The buffers the lines after the region write. -/
abbrev tailWrites : Finset (Ref sig .tc) := {main_v3}

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  rw [Finset.mem_singleton]
  by_contra hne
  exact StableHlo.devRef_ne_of_ne hne hb

set_option backward.isDefEq.respectTransparency.types false in
/-- The run saying nothing of the result. -/
theorem run_forget :
    θ_run defs (onTc (τ := τ) (main (F := F))) (s₀ m ρ)
      (Pipeline.RDat.FramePostR cfg0 (fun c => (dats m 0 c).toRForget fgtOut) tailWrites (fun c b => V0 m c (Proc.devRef .tc b))) :=
  Pipeline.RDat.θ_run_frame_around_T_track cfgs (0 : Fin 1) launch0 defs₀ Variants.none (fun c => (dats m 0 c).toRForget fgtOut) tailWrites m ρ main
    (hbody := fun c => (body_obligation_forget m c).toRForget) (hshare := fun c => (dats m 0 c).share_full fun _ => rfl)
    (howed := fun _ _ => rfl) (V₀ := V0 m) (opss := [hostOps1]) (hsub := sfx_sub) (hfresh := sfx_fresh) (hkeep := sfx_keeps)
    (hT := tail_writes)
    (hmain := hmain m Variants.none) (hA := A_eq m) (hin := hin m) (hout := hout m)

/-- THE FRAME: every weakly fair execution terminates without fault and the two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c)⟩)
    (run_forget m ρ)

end Cert.KernelIdeal.Body

end
-- ==== Proof.HostIdeal.lean ====
/-
  The host lines around the region of `KernelIdeal`. Before it: xᵀ and Wᵀ are the transposes of the two arguments.
  After it: the program's result is the transpose of the array the region's write-backs leave.
-/
import proofs.«105214_g76794015252828_cont_sun_c4_578_17_alg».proof.Proof.LaunchIdeal
import Idealize.ShloMosaic.Lib.StableHlo.Run

set_option maxRecDepth 16384

noncomputable section

namespace Cert.KernelIdeal.Host

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- xᵀ as the region finds it is the transpose of the first argument. -/
theorem V_v0 (c : Dev nD) :
    (V m c main_v0 : (⟨S8193x512, .f32⟩ : BufTy).Contents (Elt F))
      = transpose S8193x512 [1, 0] (m ((c : Thread nD τ).loc main_arg0)) transposes_S512x8193_S8193x512_1_0 := by
  show StableHlo.after hostOps0 (fun b => m (c, b)) (Proc.devRef .tc main_v0) = _
  after_results

/-- Wᵀ as the region finds it is the transpose of the second argument. -/
theorem V_v1 (c : Dev nD) :
    (V m c main_v1 : (⟨S2049x8193, .f32⟩ : BufTy).Contents (Elt F))
      = transpose S2049x8193 [1, 0] (m ((c : Thread nD τ).loc main_arg1)) transposes_S8193x2049_S2049x8193_1_0 := by
  show StableHlo.after hostOps0 (fun b => m (c, b)) (Proc.devRef .tc main_v1) = _
  after_results

/-- The program's result after the region is the transpose of the result array as the write-backs left it. -/
theorem tail_v3 (c : Dev nD) :
    Pipeline.afterTail₀ cfgs (dats m) 0 (V0 m) [hostOps1] c main_v3
      = transpose S512x2049 [1, 0] ((dats m 0 c).arrAt 2 cfg0.N) transposes_S2049x512_S512x2049_1_0 := by
  unfold Pipeline.afterTail₀
  show StableHlo.after hostOps1 _ (Proc.devRef .tc main_v3) = _
  after_results
  exact congrArg (fun a => transpose S512x2049 [1, 0] a transposes_S2049x512_S512x2049_1_0)
    (Pipeline.withArrays_arr spec0 launch0.win.arr_inj c _ _ 2)

end Cert.KernelIdeal.Host

end
-- ==== Proof.PayIdxIdeal.lean ====
/-
  The four pure values the kernel body computes, each read at one entry, at the exact (extended real) arithmetic:
  the two format changes are the identity entry by entry, and each block product read at an entry is the sum over the
  2048 contracted positions of the products of the row's and the column's entries.
-/
import proofs.«105214_g76794015252828_cont_sun_c4_578_17_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayIdx

open Idealize.ShloMosaic Idealize.ShloMosaic.ValueIdx Cert.KernelIdeal Cert.KernelIdeal.Gen

/-! ## The two narrowing copies -/

/-- The 8192 × 512 narrowing copy is the identity entry by entry: a cast to the same shape moves nothing and the
    narrowing of the format is exact. -/
theorem pay2_apply (v35 : Vec Ideal S8192x512 .f32) (j : S8192x512.Idx) : k0_pay2 (F := Ideal) v35 j = v35 j := by
  unfold k0_pay2
  simp only [shapeCast_self]
  rfl

/-- The 344 × 2048 narrowing copy is the identity entry by entry. -/
theorem pay4_apply (v28 : Vec Ideal S344x2048 .f32) (j : S344x2048.Idx) : k0_pay4 (F := Ideal) v28 j = v28 j := by
  unfold k0_pay4
  simp only [shapeCast_self]
  rfl

/-! ## One block product read at an entry -/

/-- On the left operand the row coordinate of the entry read at output entry `j` is `j`'s row. -/
theorem lhs_row (j : S344x512.Idx) (q : dot_S344x2048_S2048x512_S344x512_1_0_0_1_n_n.contr.Idx) :
    (dot_S344x2048_S2048x512_S344x512_1_0_0_1_n_n.lhsIdx j q 0).val = (j 0).val := by
  unfold DotDims.lhsIdx
  rw [dif_neg (show ¬(0 : Fin S344x2048.rank) ∈ dot_S344x2048_S2048x512_S344x512_1_0_0_1_n_n.lhsBatch by decide),
    dif_pos (show (0 : Fin S344x2048.rank) ∈ dot_S344x2048_S2048x512_S344x512_1_0_0_1_n_n.lhsNonContracting by decide)]
  rfl

/-- On the right operand the column coordinate of the entry read at output entry `j` is `j`'s column. -/
theorem rhs_col (j : S344x512.Idx) (q : dot_S344x2048_S2048x512_S344x512_1_0_0_1_n_n.contr.Idx) :
    (dot_S344x2048_S2048x512_S344x512_1_0_0_1_n_n.rhsIdx j q 1).val = (j 1).val := by
  unfold DotDims.rhsIdx
  rw [dif_neg (show ¬(1 : Fin S2048x512.rank) ∈ dot_S344x2048_S2048x512_S344x512_1_0_0_1_n_n.rhsBatch by decide),
    dif_pos (show (1 : Fin S2048x512.rank) ∈ dot_S344x2048_S2048x512_S344x512_1_0_0_1_n_n.rhsNonContracting by decide)]
  rfl

/-- A 344 × 2048 by 2048 × 512 block product accumulated into zero, read at entry `(a, b)`, is the sum over the 2048
    contracted positions `k` of the left operand at `(a, k)` times the right operand at `(k, b)`. -/
theorem matmul_zero_apply (x : FVec Ideal S344x2048 .bf16) (w : FVec Ideal S2048x512 .bf16) (a : Fin 344) (b : Fin 512) :
    matmul (F := Ideal) dot_S344x2048_S2048x512_S344x512_1_0_0_1_n_n none x w (constant (F := Ideal) S344x512 .f32 0x00000000#32) (ix2 a b)
      = ∑ k : Fin 2048, x (ix2 a k) * w (ix2 k b) := by
  simp only [matmul]
  rw [Ideal.matmul_constant_zero_apply, ← Equiv.sum_comp (contrEquiv1 dot_S344x2048_S2048x512_S344x512_1_0_0_1_n_n 2048 rfl rfl).symm]
  refine Finset.sum_congr rfl fun k _ => ?_
  have hk := contrEquiv1_symm_val dot_S344x2048_S2048x512_S344x512_1_0_0_1_n_n 2048 rfl rfl k
  have el : dot_S344x2048_S2048x512_S344x512_1_0_0_1_n_n.lhsIdx (ix2 a b) ((contrEquiv1 dot_S344x2048_S2048x512_S344x512_1_0_0_1_n_n 2048 rfl rfl).symm k) = ix2 a k :=
    funext fun ax => Fin.ext (by
      match ax with
      | ⟨0, _⟩ => exact lhs_row _ _
      | ⟨1, _⟩ => exact (dot_S344x2048_S2048x512_S344x512_1_0_0_1_n_n.lhsIdx_val_of_single rfl _ _).trans hk)
  have er : dot_S344x2048_S2048x512_S344x512_1_0_0_1_n_n.rhsIdx (ix2 a b) ((contrEquiv1 dot_S344x2048_S2048x512_S344x512_1_0_0_1_n_n 2048 rfl rfl).symm k) = ix2 k b :=
    funext fun ax => Fin.ext (by
      match ax with
      | ⟨0, _⟩ => exact (dot_S344x2048_S2048x512_S344x512_1_0_0_1_n_n.rhsIdx_val_of_single rfl _ _).trans hk
      | ⟨1, _⟩ => exact rhs_col _ _)
  rw [el, er]

/-! ## One column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two accumulated values -/

/-- The stored value at entry `(a, b)`: the carried value there plus the fourth block product's entry. -/
theorem pay1_apply (v27 : FVec Ideal S344x512 .f32) (v30 : FVec Ideal S344x2048 .bf16) (v31 : Vec Ideal S2048x512 .bf16)
    (a : Fin 344) (b : Fin 512) :
    k0_pay1 (F := Ideal) v27 v30 v31 (constant (F := Ideal) S344x512 .f32 0x00000000#32) (ix2 a b)
      = v27 (ix2 a b) + ∑ k : Fin 2048, v30 (ix2 a k) * v31 (ix2 k b) := by
  unfold k0_pay1
  show v27 (ix2 a b) + matmul (F := Ideal) dot_S344x2048_S2048x512_S344x512_1_0_0_1_n_n none v30 v31 (constant (F := Ideal) S344x512 .f32 0x00000000#32) (ix2 a b) = _
  rw [matmul_zero_apply]

/-- The carried value at entry `(a, b)`: the one-column array's entry at row `a` times the one-row array's entry at
    column `b` (each broadcast over the block), plus the three block products' entries, added left to right. -/
theorem pay3_apply (v3 : Vec Ideal S344x1 .f32) (v5 : Vec Ideal S1x512 .f32) (v10 : Vec Ideal S344x2048 .f32)
    (v13 : Vec Ideal S2048x512 .bf16) (v16 : Vec Ideal S344x2048 .f32) (v19 : Vec Ideal S2048x512 .bf16)
    (v22 : Vec Ideal S344x2048 .f32) (v25 : Vec Ideal S2048x512 .bf16) (a : Fin 344) (b : Fin 512) :
    k0_pay3 (F := Ideal) v3 v5 v10 v13 v16 v19 v22 v25 (ix2 a b)
      = ((v3 (ix2 a (0 : Fin 1)) * v5 (ix2 (0 : Fin 1) b) + ∑ k : Fin 2048, v10 (ix2 a k) * v13 (ix2 k b))
          + ∑ k : Fin 2048, v16 (ix2 a k) * v19 (ix2 k b)) + ∑ k : Fin 2048, v22 (ix2 a k) * v25 (ix2 k b) := by
  unfold k0_pay3
  simp only [shapeCast_self]
  show ((broadcastTo S344x512 v3 broadcasts_S344x1_S344x512 (ix2 a b) * broadcastTo S344x512 v5 broadcasts_S1x512_S344x512 (ix2 a b)
      + matmul (F := Ideal) dot_S344x2048_S2048x512_S344x512_1_0_0_1_n_n none (truncf (F := Ideal) .bf16 v10 bitsLt_bf16_f32) v13 (constant (F := Ideal) S344x512 .f32 0x00000000#32) (ix2 a b))
      + matmul (F := Ideal) dot_S344x2048_S2048x512_S344x512_1_0_0_1_n_n none (truncf (F := Ideal) .bf16 v16 bitsLt_bf16_f32) v19 (constant (F := Ideal) S344x512 .f32 0x00000000#32) (ix2 a b))
      + matmul (F := Ideal) dot_S344x2048_S2048x512_S344x512_1_0_0_1_n_n none (truncf (F := Ideal) .bf16 v22 bitsLt_bf16_f32) v25 (constant (F := Ideal) S344x512 .f32 0x00000000#32) (ix2 a b) = _
  rw [matmul_zero_apply, matmul_zero_apply, matmul_zero_apply, broadcastTo_a1_ab_apply, broadcastTo_1b_ab_apply]
  rfl

end Cert.KernelIdeal.PayIdx

end
-- ==== Proof.RowOut.lean ====
/-
  One entry of the product, summed in the kernel's order. Row j' of Wᵀ (2049 × 8193) against column i' of xᵀ
  (8193 × 512): the product of the last position k = 8192 first, then the four bands k = o ‥ o + 2047 for
  o = 0, 2048, 4096, 6144, added left to right, on the extended reals.
-/
import Idealize.ShloMosaic.PureOps.Ideal
import Idealize.ShloMosaic.Lib.ValueIdx

noncomputable section

open scoped BigOperators

namespace Cert.Spec

open Idealize.ShloMosaic Idealize.ShloMosaic.ValueIdx

/-- Row `j'` of `Wt` against column `i'` of `Xt`: the last position's product, then the four bands of 2048. -/
def rowOut (Wt : (⟨2, ![2049, 8193]⟩ : Shape).Idx → EReal) (Xt : (⟨2, ![8193, 512]⟩ : Shape).Idx → EReal)
    (j' : Fin 2049) (i' : Fin 512) : EReal :=
  ((((Wt (ix2 j' (⟨8192, by omega⟩ : Fin 8193)) * Xt (ix2 (⟨8192, by omega⟩ : Fin 8193) i')
      + ∑ k : Fin 2048, Wt (ix2 j' (⟨k.val, by omega⟩ : Fin 8193)) * Xt (ix2 (⟨k.val, by omega⟩ : Fin 8193) i'))
      + ∑ k : Fin 2048, Wt (ix2 j' (⟨2048 + k.val, by omega⟩ : Fin 8193)) * Xt (ix2 (⟨2048 + k.val, by omega⟩ : Fin 8193) i'))
      + ∑ k : Fin 2048, Wt (ix2 j' (⟨4096 + k.val, by omega⟩ : Fin 8193)) * Xt (ix2 (⟨4096 + k.val, by omega⟩ : Fin 8193) i'))
      + ∑ k : Fin 2048, Wt (ix2 j' (⟨6144 + k.val, by omega⟩ : Fin 8193)) * Xt (ix2 (⟨6144 + k.val, by omega⟩ : Fin 8193) i'))

end Cert.Spec

end
-- ==== Proof.BlocksIdeal.lean ====
/-
  From the blocks to the array. Entry (a, b) of the result block is row a of the Wᵀ block against column b of xᵀ,
  summed in the kernel's order: the last position first, then the four bands of 2048. So a row of the result block
  reads that row of the Wᵀ block only; the rows a point writes back are rows of the array in both windows; and what
  point t writes back is its block of one function of Wᵀ and xᵀ as the region finds them. The six blocks' rows
  0‥343, …, 1720‥2048 are all of the array's 2049 rows.
-/
import proofs.«105214_g76794015252828_cont_sun_c4_578_17_alg».proof.Proof.BodyIdeal
import proofs.«105214_g76794015252828_cont_sun_c4_578_17_alg».proof.Proof.PayIdxIdeal
import proofs.«105214_g76794015252828_cont_sun_c4_578_17_alg».proof.Proof.RowOut
import Idealize.ShloMosaic.Lib.ValueIdx
import Idealize.ShloMosaic.Lib.Pipeline.Value

set_option maxRecDepth 16384

noncomputable section

open scoped BigOperators

namespace Cert.KernelIdeal.Blocks

open Cert.KernelIdeal Cert.KernelIdeal.Gen Cert.KernelIdeal.Body
open Idealize.ShloMosaic Idealize.ShloMosaic.ValueIdx Idealize.ShloMosaic.TcCoe
open Idealize.ShloMosaic.Pipeline (Dat Window)

/-! ## The result block at an entry -/

/-- A unit-stride piece of a two-axis array read at a piece index: the array at offset plus coordinate. -/
theorem ld_ix2 {Val : EltTy → Type} {e : EltTy} {n0 n1 p0 p1 : ℕ} (X : (⟨2, ![n0, n1]⟩ : Shape).Idx → Val e) (o0 o1 : ℕ)
    (inb : ∀ a, (![o0, o1] : Fin 2 → Nat) a + (⟨2, ![p0, p1]⟩ : Shape).size a ≤ (⟨2, ![n0, n1]⟩ : Shape).size a)
    (a : Fin p0) (b : Fin p1) (i : Fin n0) (j : Fin n1) (hi : i.val = o0 + a.val) (hj : j.val = o1 + b.val) :
    View.ld X (Rect.unit (s := ⟨2, ![n0, n1]⟩) ![o0, o1] (⟨2, ![p0, p1]⟩ : Shape).size inb) (ix2 a b) = X (ix2 i j) := by
  show X _ = X _
  congr 1
  funext d
  apply Fin.ext
  match d with
  | ⟨0, _⟩ => show o0 + 1 * a.val = i.val; omega
  | ⟨1, _⟩ => show o1 + 1 * b.val = j.val; omega

/-- The scratch holds rows 0‥8191 of xᵀ. -/
theorem xsOf_apply (x1 : Vec Ideal S8193x512 .f32) (k : Fin 8192) (b : Fin 512) :
    xsOf (F := Ideal) x1 (ix2 k b) = x1 (ix2 (⟨k.val, by omega⟩ : Fin 8193) b) := by
  unfold xsOf
  rw [PayIdx.pay2_apply]
  exact ld_ix2 x1 0 0 inb_S8193x512_S8192x512_0_0 k b _ _ (by show k.val = 0 + k.val; omega) (by omega)

/-- Entry (a, b) of the result block: row a of the Wᵀ block against column b of xᵀ — the last position from xᵀ itself,
    the four bands from the scratch. -/
theorem outOf_apply (x0 : Vec Ideal S344x8193 .f32) (x1 : Vec Ideal S8193x512 .f32) (xs : Vec Ideal S8192x512 .bf16)
    (a : Fin 344) (b : Fin 512) :
    outOf (F := Ideal) x0 x1 xs (ix2 a b)
      = ((((x0 (ix2 a (⟨8192, by omega⟩ : Fin 8193)) * x1 (ix2 (⟨8192, by omega⟩ : Fin 8193) b)
          + ∑ k : Fin 2048, x0 (ix2 a (⟨k.val, by omega⟩ : Fin 8193)) * xs (ix2 (⟨k.val, by omega⟩ : Fin 8192) b))
          + ∑ k : Fin 2048, x0 (ix2 a (⟨2048 + k.val, by omega⟩ : Fin 8193)) * xs (ix2 (⟨2048 + k.val, by omega⟩ : Fin 8192) b))
          + ∑ k : Fin 2048, x0 (ix2 a (⟨4096 + k.val, by omega⟩ : Fin 8193)) * xs (ix2 (⟨4096 + k.val, by omega⟩ : Fin 8192) b))
          + ∑ k : Fin 2048, x0 (ix2 a (⟨6144 + k.val, by omega⟩ : Fin 8193)) * xs (ix2 (⟨6144 + k.val, by omega⟩ : Fin 8192) b)) := by
  unfold outOf
  rw [PayIdx.pay1_apply, PayIdx.pay3_apply]
  have ha : a.val = 0 + a.val := by omega
  have hb : b.val = 0 + b.val := by omega
  refine congrArg₂ (· + ·) (congrArg₂ (· + ·) (congrArg₂ (· + ·) (congrArg₂ (· + ·) ?_ ?_) ?_) ?_) ?_
  · exact congrArg₂ (· * ·)
      (ld_ix2 x0 0 8192 inb_S344x8193_S344x1_0_8192 a (0 : Fin 1) _ _ ha (by show 8192 = 8192 + ((0 : Fin 1) : ℕ); rfl))
      (ld_ix2 x1 8192 0 inb_S8193x512_S1x512_8192_0 (0 : Fin 1) b _ _ (by show 8192 = 8192 + ((0 : Fin 1) : ℕ); rfl) hb)
  · exact Finset.sum_congr rfl fun k _ => congrArg₂ (· * ·)
      (ld_ix2 x0 0 0 inb_S344x8193_S344x2048_0_0 a k _ _ ha (by show k.val = 0 + k.val; omega))
      (ld_ix2 xs 0 0 inb_S8192x512_S2048x512_0_0 k b _ _ (by show k.val = 0 + k.val; omega) hb)
  · exact Finset.sum_congr rfl fun k _ => congrArg₂ (· * ·)
      (ld_ix2 x0 0 2048 inb_S344x8193_S344x2048_0_2048 a k _ _ ha rfl)
      (ld_ix2 xs 2048 0 inb_S8192x512_S2048x512_2048_0 k b _ _ rfl hb)
  · exact Finset.sum_congr rfl fun k _ => congrArg₂ (· * ·)
      (ld_ix2 x0 0 4096 inb_S344x8193_S344x2048_0_4096 a k _ _ ha rfl)
      (ld_ix2 xs 4096 0 inb_S8192x512_S2048x512_4096_0 k b _ _ rfl hb)
  · exact Finset.sum_congr rfl fun k _ => congrArg₂ (· * ·)
      ((PayIdx.pay4_apply _ _).trans (ld_ix2 x0 0 6144 inb_S344x8193_S344x2048_0_6144 a k _ _ ha rfl))
      (ld_ix2 xs 6144 0 inb_S8192x512_S2048x512_6144_0 k b _ _ rfl hb)

variable (m : (ℓ : Loc nD τ sig) → Buf (Elt Ideal) ℓ)

/-! ## The index maps and the cuts, decided over the grid -/

/-- Point t stages block t of Wᵀ and of the result (rows 344·t ‥), the same rows of both, all columns; xᵀ whole. The
    last block has 329 rows inside the arrays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_0.xsize (grid0.coords t) (0 : Fin 2) = win0_2.xsize (grid0.coords t) (0 : Fin 2)
    ∧ win0_0.xsize (grid0.coords t) (1 : Fin 2) = 8193
    ∧ win0_2.xsize (grid0.coords t) (1 : Fin 2) = 512
    ∧ win0_2.xsize (grid0.coords t) (0 : Fin 2) = (if t.val < 5 then 344 else 329) :=
  (by decide +kernel : ∀ t : Fin grid0.N, _)

/-! ## Row locality -/

/-- Two Wᵀ blocks that agree on row a give the same entry (a, b) of the result block. -/
theorem outOf_row_congr (x0 x0' : Vec Ideal S344x8193 .f32) (x1 : Vec Ideal S8193x512 .f32) (xs : Vec Ideal S8192x512 .bf16)
    (a : Fin 344) (b : Fin 512) (h : ∀ k : Fin 8193, x0 (ix2 a k) = x0' (ix2 a k)) :
    outOf (F := Ideal) x0 x1 xs (ix2 a b) = outOf (F := Ideal) x0' x1 xs (ix2 a b) := by
  rw [outOf_apply, outOf_apply]
  simp only [h]

/-- On the part of a block the transfer moves, the filled block does not depend on what it was filled over. -/
theorem fill_congr_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill
  rw [dif_pos h, dif_pos h]

/-- The result block's rows inside the array do not depend on what the Wᵀ staging buffer holds past the array's end. -/
theorem rowLocal (c : Dev nD) : RowLocal m c := by
  intro t d
  obtain ⟨-, -, -, -, -, -, e0, e1, e2, -⟩ := idx_facts t
  funext y
  have h0 : (y 0).val < 344 := Nat.lt_of_lt_of_le (y 0).isLt (win0_2.xsize_le (grid0.coords t) 0)
  have h1 : (y 1).val < 512 := Nat.lt_of_lt_of_le (y 1).isLt (win0_2.xsize_le (grid0.coords t) 1)
  have ey : win0_2.xinj (grid0.coords t) y = ix2 (⟨(y 0).val, h0⟩ : Fin 344) (⟨(y 1).val, h1⟩ : Fin 512) := by
    funext a; match a with | ⟨0, _⟩ => rfl | ⟨1, _⟩ => rfl
  show outOf (F := Ideal) (win0_0.fill (grid0.coords t) d (iblk m c 0 t)) (iblk m c 1 t) (xs0 m c) (win0_2.xinj (grid0.coords t) y)
    = outAt m c t (win0_2.xinj (grid0.coords t) y)
  unfold outAt wfull
  rw [ey]
  refine outOf_row_congr _ _ _ _ _ _ fun k => ?_
  refine fill_congr_of_moved win0_0 (grid0.coords t) _ _ _ _ ((win0_0.moved_iff _ _).mpr fun a => ?_)
  match a with
  | ⟨0, _⟩ => show (y 0).val < win0_0.xsize (grid0.coords t) (0 : Fin 2); rw [e0]; exact (y 0).isLt
  | ⟨1, _⟩ => show k.val < win0_0.xsize (grid0.coords t) (1 : Fin 2); rw [e1]; exact k.isLt

/-! ## What a point writes back -/

/-- The result array as one function of Wᵀ and xᵀ as the region finds them: entry (j', i') is row j' of Wᵀ against
    column i' of xᵀ. -/
def G2 (c : Dev nD) : Buf (Elt Ideal) ((c : Thread nD τ).loc main_v2) :=
  fun idx => Cert.Spec.rowOut (V m c main_v1) (V m c main_v0) (idx 0) (idx 1)

/-- A Wᵀ block whose row a is the array's row j', xᵀ whole and the scratch its rows 0‥8191: entry (a, b) of the result
    block is row j' of Wᵀ against column b of xᵀ. -/
theorem outOf_eq_rowOut (Wt : (⟨2, ![2049, 8193]⟩ : Shape).Idx → EReal) (Xt : (⟨2, ![8193, 512]⟩ : Shape).Idx → EReal)
    (x0 : Vec Ideal S344x8193 .f32) (x1 : Vec Ideal S8193x512 .f32) (xs : Vec Ideal S8192x512 .bf16)
    (a : Fin 344) (b : Fin 512) (j' : Fin 2049)
    (h0 : ∀ k : Fin 8193, x0 (ix2 a k) = Wt (ix2 j' k))
    (h1 : ∀ k : Fin 8193, x1 (ix2 k b) = Xt (ix2 k b))
    (hs : ∀ k : Fin 8192, xs (ix2 k b) = Xt (ix2 (⟨k.val, by omega⟩ : Fin 8193) b)) :
    outOf (F := Ideal) x0 x1 xs (ix2 a b) = Cert.Spec.rowOut Wt Xt j' b := by
  rw [outOf_apply]
  unfold Cert.Spec.rowOut
  simp only [h0, h1, hs]

/-- The Wᵀ block of point t filled out, on a row inside the array: the array's row 344·t + a. -/
theorem wfull_apply (c : Dev nD) (t : Fin cfg0.N) (a : Fin 344) (k : Fin 8193) (j' : Fin 2049)
    (ha : a.val < win0_2.xsize (grid0.coords t) (0 : Fin 2)) (hj : j'.val = t.val * 344 + a.val) :
    wfull m c t (ix2 a k) = V m c main_v1 (ix2 j' k) := by
  obtain ⟨i0, i1, -, -, -, -, e0, e1, -, -⟩ := idx_facts t
  have hmv : win0_0.moved (grid0.coords t) (ix2 a k) = true := (win0_0.moved_iff _ _).mpr fun ax => by
    match ax with
    | ⟨0, _⟩ => show a.val < win0_0.xsize (grid0.coords t) (0 : Fin 2); rw [e0]; exact ha
    | ⟨1, _⟩ => show k.val < win0_0.xsize (grid0.coords t) (1 : Fin 2); rw [e1]; exact k.isLt
  unfold wfull Window.fill
  rw [dif_pos hmv]
  unfold iblk
  show V m c main_v1 (((cfg0.win 0).blk t).view.emb _) = V m c main_v1 (ix2 j' k)
  congr 1
  funext ax; apply Fin.ext
  match ax with
  | ⟨0, _⟩ => show win0_0.index t (0 : Fin 2) * 344 + 1 * a.val = j'.val; rw [i0]; omega
  | ⟨1, _⟩ => show win0_0.index t (1 : Fin 2) * 8193 + 1 * k.val = k.val; rw [i1]; omega

/-- The xᵀ block of any point is xᵀ. -/
theorem iblk1_apply (c : Dev nD) (t : Fin cfg0.N) (k : Fin 8193) (b : Fin 512) :
    (iblk m c 1 t : Vec Ideal S8193x512 .f32) (ix2 k b) = V m c main_v0 (ix2 k b) := by
  obtain ⟨-, -, i0, i1, -⟩ := idx_facts t
  unfold iblk
  show V m c main_v0 (((cfg0.win 1).blk t).view.emb _) = V m c main_v0 (ix2 k b)
  congr 1
  funext ax; apply Fin.ext
  match ax with
  | ⟨0, _⟩ => show win0_1.index t (0 : Fin 2) * 8193 + 1 * k.val = k.val; rw [i0]; omega
  | ⟨1, _⟩ => show win0_1.index t (1 : Fin 2) * 512 + 1 * b.val = b.val; rw [i1]; omega

/-- The scratch is rows 0‥8191 of xᵀ. -/
theorem xs0_apply (c : Dev nD) (k : Fin 8192) (b : Fin 512) :
    xs0 m c (ix2 k b) = V m c main_v0 (ix2 (⟨k.val, by omega⟩ : Fin 8193) b) := by
  unfold xs0
  exact (xsOf_apply _ k b).trans (iblk1_apply m c t0_0 _ b)

/-- What point t writes back is its block of `G2`: entry y of the rows it writes is row 344·t + y₀ of Wᵀ against column
    y₁ of xᵀ. -/
theorem flushed_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after_2]
  obtain ⟨-, -, -, -, i0, i1, -, -, e2, e3⟩ := idx_facts t
  have hN : t.val < 6 := Nat.lt_of_lt_of_eq t.isLt N_0
  funext y
  have h0 : (y 0).val < 344 := Nat.lt_of_lt_of_le (y 0).isLt (win0_2.xsize_le (grid0.coords t) 0)
  have h1 : (y 1).val < 512 := Nat.lt_of_lt_of_le (y 1).isLt (win0_2.xsize_le (grid0.coords t) 1)
  have hy0 : (y 0).val < win0_2.xsize (grid0.coords t) (0 : Fin 2) := (y 0).isLt
  have hx : (y 0).val < (if t.val < 5 then 344 else 329) := by rw [← e3]; exact hy0
  have hr : t.val * 344 + (y 0).val < 2049 := by
    split at hx <;> omega
  have ey : win0_2.xinj (grid0.coords t) y = ix2 (⟨(y 0).val, h0⟩ : Fin 344) (⟨(y 1).val, h1⟩ : Fin 512) := by
    funext a; match a with | ⟨0, _⟩ => rfl | ⟨1, _⟩ => rfl
  show outAt m c t (win0_2.xinj (grid0.coords t) y) = G2 m c (((cfg0.win 2).blk t).view.emb y)
  rw [ey]
  unfold outAt G2
  have hW : ∀ k : Fin 8193, wfull m c t (ix2 (⟨(y 0).val, h0⟩ : Fin 344) k)
      = V m c main_v1 (ix2 (⟨t.val * 344 + (y 0).val, hr⟩ : Fin 2049) k) := fun k => wfull_apply m c t _ k _ hy0 rfl
  have hX : ∀ k : Fin 8193, (iblk m c 1 t : Vec Ideal S8193x512 .f32) (ix2 k (⟨(y 1).val, h1⟩ : Fin 512))
      = V m c main_v0 (ix2 k (⟨(y 1).val, h1⟩ : Fin 512)) := fun k => iblk1_apply m c t k _
  have hS : ∀ k : Fin 8192, xs0 m c (ix2 k (⟨(y 1).val, h1⟩ : Fin 512))
      = V m c main_v0 (ix2 (⟨k.val, by omega⟩ : Fin 8193) (⟨(y 1).val, h1⟩ : Fin 512)) := fun k => xs0_apply m c k _
  have key := outOf_eq_rowOut (V m c main_v1) (V m c main_v0) (wfull m c t) (iblk m c 1 t) (xs0 m c)
    (⟨(y 0).val, h0⟩ : Fin 344) (⟨(y 1).val, h1⟩ : Fin 512) (⟨t.val * 344 + (y 0).val, hr⟩ : Fin 2049) hW hX hS
  refine key.trans ?_
  have er : (⟨t.val * 344 + (y 0).val, hr⟩ : Fin 2049) = ((cfg0.win 2).blk t).view.emb y 0 := by
    apply Fin.ext
    show t.val * 344 + (y 0).val = win0_2.index t (0 : Fin 2) * 344 + 1 * (y 0).val
    rw [i0]; omega
  have ec : (⟨(y 1).val, h1⟩ : Fin 512) = ((cfg0.win 2).blk t).view.emb y 1 := by
    apply Fin.ext
    show (y 1).val = win0_2.index t (1 : Fin 2) * 512 + 1 * (y 1).val
    rw [i1]; omega
  exact congrArg₂ (Cert.Spec.rowOut (V m c main_v1) (V m c main_v0)) er ec
end Cert.KernelIdeal.Blocks

end
-- ==== Proof.BridgeIdeal.lean ====
/-
  The product summed in the kernel's order is the product summed in one go. Reading each transposed matrix at an entry
  swaps the two coordinates; the extended reals' product commutes; and a sum over the 8193 contracted positions is its
  last term plus four consecutive bands of 2048 terms, in any grouping, because addition there is associative and
  commutative.
-/
import proofs.«105214_g76794015252828_cont_sun_c4_578_17_alg».proof.Proof.RowOut
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Idealize.ShloMosaic Idealize.ShloMosaic.ValueIdx

/-! ## A sum over 8193 positions, cut as the last position and four bands of 2048 -/

/-- A sum over the first `4 a + 1` naturals is its last term plus the four sums over the consecutive bands of length `a`. -/
theorem sum_range_four {M : Type*} [AddCommMonoid M] (f : ℕ → M) (a : ℕ) :
    ∑ n ∈ Finset.range (a + a + a + a + 1), f n
      = (((f (a + a + a + a) + ∑ n ∈ Finset.range a, f n) + ∑ n ∈ Finset.range a, f (a + n))
          + ∑ n ∈ Finset.range a, f (a + a + n)) + ∑ n ∈ Finset.range a, f (a + a + a + n) := by
  rw [Finset.sum_range_succ, Finset.sum_range_add, Finset.sum_range_add, Finset.sum_range_add]
  abel

/-- For a function of the position number: the sum over the positions below 8193 is the term at 8192 plus the four
    sums over the bands starting at 0, 2048, 4096 and 6144, added left to right. -/
theorem sum_bands {M : Type*} [AddCommMonoid M] (f : ℕ → M) :
    ∑ k : Fin 8193, f k.val
      = (((f 8192 + ∑ k : Fin 2048, f k.val) + ∑ k : Fin 2048, f (2048 + k.val)) + ∑ k : Fin 2048, f (4096 + k.val))
          + ∑ k : Fin 2048, f (6144 + k.val) := by
  rw [Fin.sum_univ_eq_sum_range f 8193, Fin.sum_univ_eq_sum_range f 2048,
    Fin.sum_univ_eq_sum_range (fun n => f (2048 + n)) 2048, Fin.sum_univ_eq_sum_range (fun n => f (4096 + n)) 2048,
    Fin.sum_univ_eq_sum_range (fun n => f (6144 + n)) 2048]
  exact sum_range_four f 2048

/-- The same for a function of the position itself. -/
theorem sum_bands_fin {M : Type*} [AddCommMonoid M] (g : Fin 8193 → M) :
    ∑ k : Fin 8193, g k
      = (((g ⟨8192, by omega⟩ + ∑ k : Fin 2048, g ⟨k.val, by omega⟩) + ∑ k : Fin 2048, g ⟨2048 + k.val, by omega⟩)
          + ∑ k : Fin 2048, g ⟨4096 + k.val, by omega⟩) + ∑ k : Fin 2048, g ⟨6144 + k.val, by omega⟩ := by
  let f : ℕ → M := fun n => if h : n < 8193 then g ⟨n, h⟩ else 0
  have hf : ∀ (n : ℕ) (h : n < 8193), f n = g ⟨n, h⟩ := fun n h => dif_pos h
  refine (Finset.sum_congr rfl fun k _ => (?_ : g k = f k.val)).trans ((sum_bands f).trans ?_)
  · exact (hf k.val k.isLt).symm
  · exact congrArg₂ (· + ·) (congrArg₂ (· + ·) (congrArg₂ (· + ·) (congrArg₂ (· + ·)
      (hf _ _)
      (Finset.sum_congr rfl fun k _ => hf _ _))
      (Finset.sum_congr rfl fun k _ => hf _ _))
      (Finset.sum_congr rfl fun k _ => hf _ _))
      (Finset.sum_congr rfl fun k _ => hf _ _)

/-! ## The bridge -/

/-- Entry `(i, j)` of the transpose of the banded product of the two transposed matrices is the plain sum over the 8193
    contracted positions `k` of `x (i, k) * W (k, j)`. -/
theorem bridge (x : (⟨2, ![512, 8193]⟩ : Shape).Idx → EReal) (W : (⟨2, ![8193, 2049]⟩ : Shape).Idx → EReal)
    (h0 : (⟨2, ![512, 8193]⟩ : Shape).Transposes [1, 0] ⟨2, ![8193, 512]⟩) (h1 : (⟨2, ![8193, 2049]⟩ : Shape).Transposes [1, 0] ⟨2, ![2049, 8193]⟩)
    (h2 : (⟨2, ![2049, 512]⟩ : Shape).Transposes [1, 0] ⟨2, ![512, 2049]⟩) (i : Fin 512) (j : Fin 2049) :
    transpose ⟨2, ![512, 2049]⟩ [1, 0] (fun idx : (⟨2, ![2049, 512]⟩ : Shape).Idx => Cert.Spec.rowOut (transpose ⟨2, ![2049, 8193]⟩ [1, 0] W h1) (transpose ⟨2, ![8193, 512]⟩ [1, 0] x h0) (idx 0) (idx 1)) h2 (ix2 i j)
      = ∑ k : Fin 8193, x (ix2 i k) * W (ix2 k j) := by
  rw [transpose_ix2_apply]
  show Cert.Spec.rowOut (transpose ⟨2, ![2049, 8193]⟩ [1, 0] W h1) (transpose ⟨2, ![8193, 512]⟩ [1, 0] x h0) j i = _
  have hW : ∀ k : Fin 8193, transpose ⟨2, ![2049, 8193]⟩ [1, 0] W h1 (ix2 j k) = W (ix2 k j) :=
    fun k => transpose_ix2_apply W h1 j k
  have hx : ∀ k : Fin 8193, transpose ⟨2, ![8193, 512]⟩ [1, 0] x h0 (ix2 k i) = x (ix2 i k) :=
    fun k => transpose_ix2_apply x h0 k i
  unfold Cert.Spec.rowOut
  simp only [hW, hx]
  rw [sum_bands_fin (fun k => x (ix2 i k) * W (ix2 k j))]
  simp only [mul_comm (W _) (x _)]

end Cert.Bridge

end
-- ==== Proof.CoverIdeal.lean ====
/-
  The six write-back blocks of the result cover it. The result has 2049 rows and 512 columns; the block of grid point
  `t` starts at row `344 * t` and spans every column, and the part of it inside the array has 344 rows for `t < 5`
  and the remaining 329 rows for `t = 5`. So row `r` lies in the block of point `r / 344`, which is below 6.
-/
import proofs.«105214_g76794015252828_cont_sun_c4_578_17_alg».proof.Proof.Gen.KernelIdeal.Points
import Idealize.ShloMosaic.Lib.Pipeline.Value

noncomputable section

namespace Cert.KernelIdeal.Cover

open Cert.KernelIdeal Cert.KernelIdeal.Gen Idealize.ShloMosaic

/-- At every grid point: the block's first row is `344 * t`, its rows inside the array number 344 before the last point
    and 329 at the last, its first column is 0 and it has all 512 columns. -/
theorem blk_facts : ∀ t : Fin cfg0.N,
    win0_2.index t (0 : Fin 2) * 344 = t.val * 344
      ∧ win0_2.xsize (grid0.coords t) (0 : Fin 2) = (if t.val < 5 then 344 else 329)
      ∧ win0_2.index t (1 : Fin 2) * 512 = 0
      ∧ win0_2.xsize (grid0.coords t) (1 : Fin 2) = 512 :=
  (by decide +kernel : ∀ t : Fin grid0.N,
    win0_2.index t (0 : Fin 2) * 344 = t.val * 344
      ∧ win0_2.xsize (grid0.coords t) (0 : Fin 2) = (if t.val < 5 then 344 else 329)
      ∧ win0_2.index t (1 : Fin 2) * 512 = 0
      ∧ win0_2.xsize (grid0.coords t) (1 : Fin 2) = 512)

/-- An entry of the result is in point `t`'s block iff each coordinate is in the block's range on its axis. -/
theorem mem_blk (t : Fin cfg0.N) (i : S2049x512.Idx) :
    i ∈ ((cfg0.win 2).blk t).view.set
      ↔ ∀ a : Fin 2, win0_2.index t a * S344x512.size a ≤ (i a).val
          ∧ (i a).val < win0_2.index t a * S344x512.size a + win0_2.xsize (grid0.coords t) a := by
  show i ∈ ((View.whole main_v2).slice (win0_2.rect t)).set ↔ _
  rw [View.set_slice_whole, Rect.mem_set_unit]
  exact Iff.rfl

/-- Every entry of the result lies in the block of some grid point, and every point writes its block back: the point of
    row `r` is `r / 344`. -/
theorem cover2 (c : Dev nD) : ∀ i : ((cfg0.win 2).arr.view.loc (c.tc : Thread nD τ)).2.ty.Idx,
    ∃ t : Fin cfg0.N, (cfg0.win 2).flush t = true ∧ i ∈ ((cfg0.win 2).blk t).view.set := by
  intro i
  change S2049x512.Idx at i
  have h0 : (i 0).val < 2049 := (i 0).isLt
  have h1 : (i 1).val < 512 := (i 1).isLt
  have hN : (i 0).val / 344 < cfg0.N := by
    show (i 0).val / 344 < grid0.N
    rw [show grid0.N = 6 from by decide]; omega
  refine ⟨⟨(i 0).val / 344, hN⟩, flush0_2 _, ?_⟩
  rw [mem_blk]
  obtain ⟨e0, e1, e2, e3⟩ := blk_facts ⟨(i 0).val / 344, hN⟩
  intro a
  match a with
  | ⟨0, _⟩ =>
    show win0_2.index ⟨(i 0).val / 344, hN⟩ (0 : Fin 2) * 344 ≤ (i 0).val
      ∧ (i 0).val < win0_2.index ⟨(i 0).val / 344, hN⟩ (0 : Fin 2) * 344
          + win0_2.xsize (grid0.coords ⟨(i 0).val / 344, hN⟩) (0 : Fin 2)
    rw [e0, e1]
    show (i 0).val / 344 * 344 ≤ (i 0).val
      ∧ (i 0).val < (i 0).val / 344 * 344 + (if (i 0).val / 344 < 5 then 344 else 329)
    split <;> omega
  | ⟨1, _⟩ =>
    show win0_2.index ⟨(i 0).val / 344, hN⟩ (1 : Fin 2) * 512 ≤ (i 1).val
      ∧ (i 1).val < win0_2.index ⟨(i 0).val / 344, hN⟩ (1 : Fin 2) * 512
          + win0_2.xsize (grid0.coords ⟨(i 0).val / 344, hN⟩) (1 : Fin 2)
    rw [e2, e3]
    omega

end Cert.KernelIdeal.Cover

end
-- ==== Proof.AlgebraicIdeal.lean ====
/-
  The value of `KernelIdeal` against the reference, on the extended reals.
  The kernel transposes both arguments, fills the rows of yᵀ = Wᵀ · xᵀ block by block — entry (j, i) as the product
  of the last position k = 8192 plus four bands of 2048 positions — and transposes the result back; the reference
  forms entry (i, j) of x · W as one sum over the 8193 positions. Commutativity of the product and regrouping of a
  finite sum, both valid for every extended real, make the two entries equal; no input needs to be finite.
-/
import proofs.«105214_g76794015252828_cont_sun_c4_578_17_alg».proof.Proof.HostIdeal
import proofs.«105214_g76794015252828_cont_sun_c4_578_17_alg».proof.Proof.BlocksIdeal
import proofs.«105214_g76794015252828_cont_sun_c4_578_17_alg».proof.Proof.BridgeIdeal
import proofs.«105214_g76794015252828_cont_sun_c4_578_17_alg».proof.Proof.CoverIdeal
import proofs.«105214_g76794015252828_cont_sun_c4_578_17_alg».proof.Proof.Gen.ReferenceIdeal.Read

set_option maxRecDepth 16384

noncomputable section

namespace Cert.KernelIdeal.Result

open Cert.KernelIdeal Cert.KernelIdeal.Gen Cert.KernelIdeal.Body
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The six write-backs cover the result array, and each writes the rows of `G2` it names: the array ends holding `G2`. -/
theorem final2 (c : Dev nD) : (dats m 0 c).arrAt 2 cfg0.N = Blocks.G2 m c :=
  (dats m 0 c).arrAt_eq_of_cover 2 (Blocks.G2 m c) (fun t _ => Blocks.flushed_eq m c t) (Cover.cover2 c)

/-- The kernel's result — the transpose of the array the write-backs leave — is the reference's product of the two
    arguments, entry by entry. -/
theorem result_eq (c : Dev nD) :
    transpose S512x2049 [1, 0] (Blocks.G2 m c) transposes_S2049x512_S512x2049_1_0
      = Cert.ReferenceIdeal.Read.val_main_v0 (F := Ideal) (m ((c : Thread nD τ).loc main_arg0)) (m ((c : Thread nD τ).loc main_arg1)) := by
  funext i
  obtain ⟨p, q, rfl⟩ : ∃ (p : Fin 512) (q : Fin 2049), i = ix2 p q := ⟨i 0, i 1, eq_ix2 i⟩
  rw [Cert.ReferenceIdeal.Read.val_main_v0_apply]
  have hl : ∀ k : Fin 8193, Cert.ReferenceIdeal.Read.lidx_main_v0 (ix2 p q) k = ix2 p k := fun k =>
    funext fun a => Fin.ext (by match a with | ⟨0, _⟩ => rfl | ⟨1, _⟩ => rfl)
  have hr : ∀ k : Fin 8193, Cert.ReferenceIdeal.Read.ridx_main_v0 (ix2 p q) k = ix2 k q := fun k =>
    funext fun a => Fin.ext (by match a with | ⟨0, _⟩ => rfl | ⟨1, _⟩ => rfl)
  simp only [hl, hr]
  unfold Blocks.G2
  rw [Host.V_v0 m c, Host.V_v1 m c]
  exact Cert.Bridge.bridge _ _ _ _ _ p q

/-- The kernel's run with its result named: it ends holding the reference's product of the arguments, which end
    unchanged. -/
theorem run : θ_run defs (onTc (τ := τ) (main (F := Ideal))) ⟨m, fun _ => 0, ρ⟩ (fun r => ∀ c : Dev nD,
      r.2.mem ((c.tc : Thread nD τ).loc main_v3)
        = Cert.ReferenceIdeal.Read.val_main_v0 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨by rw [(h c).2 main_v3 (Pipeline.mem_restRefs_of main_v3 (by decide) (by decide)), Host.tail_v3 m c, final2 m c]
        exact result_eq m c,
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (Body.run_main m ρ (fun c => Blocks.rowLocal m c))

end Cert.KernelIdeal.Result

end
-- ==== Proof.lean ====
/-
  The proof of `Cert.Claim` for the kernel yᵀ = Wᵀ · xᵀ against the reference y = x · W
  (x : 512 × 8193, W : 8193 × 2049).
  The three frames: the kernel's body at a grid point, from any contents of its buffers, runs without fault and leaves
  its inputs as found (the word-level program and its idealization are one text, so the same argument serves both);
  the reference is a single host product. `preserves` has no conjunct. `algebraic`: at the ideal instance the kernel's
  result, read entry by entry through the two transposes before the region and the one after it, is the reference's
  sum over the 8193 positions regrouped as the last position plus four bands of 2048; the product commutes and a finite
  sum regroups on all extended reals, so no finiteness of the inputs is used.
-/
import proofs.«105214_g76794015252828_cont_sun_c4_578_17_alg».proof.Defs
import proofs.«105214_g76794015252828_cont_sun_c4_578_17_alg».proof.Proof.Gen.Kernel
import proofs.«105214_g76794015252828_cont_sun_c4_578_17_alg».proof.Proof.Gen.KernelIdeal
import proofs.«105214_g76794015252828_cont_sun_c4_578_17_alg».proof.Proof.Gen.ReferenceIdeal
import proofs.«105214_g76794015252828_cont_sun_c4_578_17_alg».proof.Proof.Gen.Pre_finite_inputs
import proofs.«105214_g76794015252828_cont_sun_c4_578_17_alg».proof.Proof.LaunchBits
import proofs.«105214_g76794015252828_cont_sun_c4_578_17_alg».proof.Proof.LaunchIdeal
import proofs.«105214_g76794015252828_cont_sun_c4_578_17_alg».proof.Proof.AlgebraicIdeal
import proofs.«105214_g76794015252828_cont_sun_c4_578_17_alg».proof.Proof.Gen.ReferenceIdeal.Run
import proofs.«105214_g76794015252828_cont_sun_c4_578_17_alg».proof.Proof.Gen.ReferenceIdeal.Read
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Body.frame (F := Bits) m ρ

/-- So does its idealization. -/
theorem frame_ki : Cert.frame_KernelIdeal := fun m ρ _ => Cert.KernelIdeal.Body.frame (F := Ideal) m ρ

/-- The reference is one host product: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on x and W both programs end holding the product x · W, entry by entry the same
    extended real. -/
theorem algebraic : Cert.algebraic_KernelIdeal_ReferenceIdeal := by
  intro m ρ m' ρ' _ hagree
  refine ⟨fun c => Cert.ReferenceIdeal.Read.val_main_v0 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v0_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
